-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v49)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S10000 : Shape := ⟨1, ![10000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S128 .f32) (main_arg5 : FVec F S128x64 .f32) (main_arg6 : FVec F S64 .f32) (main_arg7 : FVec F S64x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x64 .f32) (main_arg6 : FVec F S64 .f32) (main_arg7 : FVec F S64x64 .f32) (main_arg8 : FVec F S64 .f32) (main_arg9 : IVec S1600000 32) (main_arg10 : IVec S1600000 32) (main_arg11 : IVec S10000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S10000 : Shape := ⟨1, ![10000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S10000x1 : Shape := ⟨2, ![10000, 1]⟩
abbrev S10000x128 : Shape := ⟨2, ![10000, 128]⟩
abbrev S10000x64 : Shape := ⟨2, ![10000, 64]⟩
abbrev S5000x64 : Shape := ⟨2, ![5000, 64]⟩
abbrev S1x64 : Shape := ⟨2, ![1, 64]⟩

abbrev nBuf : Space → Nat
  | .hbm => 77
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1600000, .i32⟩
  | .hbm, ⟨10, _⟩ => ⟨S1600000, .i32⟩
  | .hbm, ⟨11, _⟩ => ⟨S10000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x128, .bf16⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .bf16⟩
  | .hbm, ⟨46, _⟩ => ⟨S1600000x128, .f32⟩
  | .hbm, ⟨47, _⟩ => ⟨S_, .f32⟩
  | .hbm, ⟨48, _⟩ => ⟨S50000x128, .f32⟩
  | .hbm, ⟨49, _⟩ => ⟨S1600000x1, .i32⟩
  | .hbm, ⟨50, _⟩ => ⟨S50000x128, .f32⟩
  | .hbm, ⟨51, _⟩ => ⟨S50000x128, .bf16⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .bf16⟩
  | .hbm, ⟨61, _⟩ => ⟨S1600000x128, .f32⟩
  | .hbm, ⟨62, _⟩ => ⟨S_, .f32⟩
  | .hbm, ⟨63, _⟩ => ⟨S50000x128, .f32⟩
  | .hbm, ⟨64, _⟩ => ⟨S1600000x1, .i32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S10000, .i32⟩
  | .hbm, ⟨69, _⟩ => ⟨S10000, .i1⟩
  | .hbm, ⟨70, _⟩ => ⟨S_, .i32⟩
  | .hbm, ⟨71, _⟩ => ⟨S10000, .i32⟩
  | .hbm, ⟨72, _⟩ => ⟨S10000, .i32⟩
  | .hbm, ⟨73, _⟩ => ⟨S10000, .i32⟩
  | .hbm, ⟨74, _⟩ => ⟨S10000x1, .i32⟩
  | .hbm, ⟨75, _⟩ => ⟨S10000x128, .f32⟩
  | .hbm, ⟨76, _⟩ => ⟨S10000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128x128, .f32⟩
  | .local _ .vmem, ⟨13, _⟩ => ⟨S5000x1, .f32⟩
  | .local _ .vmem, ⟨14, _⟩ => ⟨S5000x1, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x64, .f32⟩
  | .local _ .vmem, ⟨27, _⟩ => ⟨S64, .f32⟩
  | .local _ .vmem, ⟨28, _⟩ => ⟨S64x64, .f32⟩
  | .local _ .vmem, ⟨29, _⟩ => ⟨S64, .f32⟩
  | .local _ .vmem, ⟨30, _⟩ => ⟨S5000x64, .f32⟩
  | .local _ .vmem, ⟨31, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c : Ref sig .tc := ⟨.hbm, 37, rfl⟩
abbrev main_v18 : Ref sig .tc := ⟨.hbm, 38, rfl⟩
abbrev main_v19 : Ref sig .tc := ⟨.hbm, 39, rfl⟩
abbrev main_c_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_11 : Ref sig .tc := ⟨.hbm, 67, rfl⟩
abbrev main_v42 : Ref sig .tc := ⟨.hbm, 68, rfl⟩
abbrev main_v43 : Ref sig .tc := ⟨.hbm, 69, rfl⟩
abbrev main_c_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S10000 : S_.BroadcastsInDim S10000 (![] : Fin 0 → Fin S10000.rank)
  bcast_S10000_S10000x1_0 : S10000.BroadcastsInDim S10000x1 (![0] : Fin 1 → Fin S10000x1.rank)
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S10000x1_S10000x128_1_0_n_n_0_1_1128_wf : GatherDims.WF S50000x128 S10000x1 S10000x128 [1] [0] [] [0] [] 1 ![1, 128]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S10000x128.size a
  hwx3_0 : ∀ i : grid3.Coords, EltTy.bits .f32 = 32 ∨ (Rect.block (s := S10000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S10000x64.size a
  hwx3_5 : ∀ i : grid3.Coords, EltTy.bits .f32 = 32 ∨ (Rect.block (s := S10000x64) S5000x64.size (cc3_transform_5 i) (hinb3_5 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S10000x1_S10000x128_1_0_n_n_0_1_1128 : GatherDims S50000x128 S10000x1 S10000x128 where
  offsetDims := [1]
  collapsedSliceDims := [0]
  operandBatchingDims := []
  startIndicesBatchingDims := []
  startIndexMap := [0]
  indexVectorDim := 1
  sliceSizes := ![1, 128]
  wf := gather_S50000x128_S10000x1_S10000x128_1_0_n_n_0_1_1128_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S10000 : Shape := ⟨1, ![10000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S10000x1 : Shape := ⟨2, ![10000, 1]⟩
abbrev S10000x128 : Shape := ⟨2, ![10000, 128]⟩
abbrev S10000x64 : Shape := ⟨2, ![10000, 64]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1600000, .i32⟩
  | .hbm, ⟨10, _⟩ => ⟨S1600000, .i32⟩
  | .hbm, ⟨11, _⟩ => ⟨S10000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S50000, .f32⟩
  | .hbm, ⟨16, _⟩ => ⟨S1600000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S_, .f32⟩
  | .hbm, ⟨34, _⟩ => ⟨S50000x1, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S50000x128, .f32⟩
  | .hbm, ⟨50, _⟩ => ⟨S1600000x1, .i32⟩
  | .hbm, ⟨51, _⟩ => ⟨S50000x128, .f32⟩
  | .hbm, ⟨52, _⟩ => ⟨S50000x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S50000x128, .f32⟩
  | .hbm, ⟨74, _⟩ => ⟨S1600000x1, .i32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S50000x128, .f32⟩
  | .hbm, ⟨84, _⟩ => ⟨S_, .i32⟩
  | .hbm, ⟨85, _⟩ => ⟨S10000, .i32⟩
  | .hbm, ⟨86, _⟩ => ⟨S10000, .i1⟩
  | .hbm, ⟨87, _⟩ => ⟨S_, .i32⟩
  | .hbm, ⟨88, _⟩ => ⟨S10000, .i32⟩
  | .hbm, ⟨89, _⟩ => ⟨S10000, .i32⟩
  | .hbm, ⟨90, _⟩ => ⟨S10000, .i32⟩
  | .hbm, ⟨91, _⟩ => ⟨S10000x1, .i32⟩
  | .hbm, ⟨92, _⟩ => ⟨S10000x128, .f32⟩
  | .hbm, ⟨93, _⟩ => ⟨S10000x64, .f32⟩
  | .hbm, ⟨94, _⟩ => ⟨S1x64, .f32⟩
  | .hbm, ⟨95, _⟩ => ⟨S10000x64, .f32⟩
  | .hbm, ⟨96, _⟩ => ⟨S10000x64, .f32⟩
  | .hbm, ⟨97, _⟩ => ⟨S10000x64, .f32⟩
  | .hbm, ⟨98, _⟩ => ⟨S10000x64, .f32⟩
  | .hbm, ⟨99, _⟩ => ⟨S1x64, .f32⟩
  | .hbm, ⟨100, _⟩ => ⟨S10000x64, .f32⟩
  | .hbm, ⟨101, _⟩ => ⟨S10000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_v10 : Ref sig .tc := ⟨.hbm, 27, rfl⟩
abbrev main_v11 : Ref sig .tc := ⟨.hbm, 28, rfl⟩
abbrev main_cst_4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call0_cst : Ref sig .tc := ⟨.hbm, 57, rfl⟩
abbrev main_call0_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_8 : Ref sig .tc := ⟨.hbm, 63, rfl⟩
abbrev main_v39 : Ref sig .tc := ⟨.hbm, 64, rfl⟩
abbrev main_v40 : Ref sig .tc := ⟨.hbm, 65, rfl⟩
abbrev main_c_9 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S10000x1_S10000x128_1_0_n_n_0_1_1128_wf : GatherDims.WF S50000x128 S10000x1 S10000x128 [1] [0] [] [0] [] 1 ![1, 128]
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S10000x1_S10000x128_1_0_n_n_0_1_1128 : GatherDims S50000x128 S10000x1 S10000x128 where
  offsetDims := [1]
  collapsedSliceDims := [0]
  operandBatchingDims := []
  startIndicesBatchingDims := []
  startIndexMap := [0]
  indexVectorDim := 1
  sliceSizes := ![1, 128]
  wf := gather_S50000x128_S10000x1_S10000x128_1_0_n_n_0_1_1128_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.KernelRun.lean ====
/-
  The idealized kernel's run with its two RESULT arrays read.

  @main is eight segments: a stretch of host operations, then a region (one pallas_call), four times over. The contents of
  every buffer at each boundary form a fold from the launch memory: a host stretch applies its operations, a region
  replaces each of its output arrays by what its grid points wrote back and leaves everything else. The frame certificate
  runs the segments and reads, from the last boundary's contents, that the twelve argument arrays end as launched. Here the
  same run is read at two more buffers, the two results: after the run each holds the last boundary's contents at its
  reference — for the head's output what the fourth region's points wrote back, for the node features what the third
  region's points wrote back (the last host stretch and the fourth region write neither).
-/
import proofs.«128032_j73830487818453_2_alg».proof.Proof.KernelIdealFrameP
import Idealize.ShloMosaic.Lib.Pipeline.Value

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the arguments as launched. -/
theorem run_bufs : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

/-- The head's output array ends at what the fourth region's grid points wrote back. -/
theorem W8_head (c : Dev nD) : W8 m ρ c (Proc.devRef .tc main_v49) = (dat3 (V7 m ρ) c).arrAt 5 cfg3.N :=
  W8_arr m ρ c 5

/-- The node features end at what the third region's grid points wrote back: the gather after it and the fourth region
    write other buffers. -/
theorem W8_nodes (c : Dev nD) : W8 m ρ c (Proc.devRef .tc main_v41) = (dat2 (V5 m ρ) c).arrAt 3 cfg2.N :=
  calc W8 m ρ c (Proc.devRef .tc main_v41)
    _ = W7 m ρ c (Proc.devRef .tc main_v41) := W8_of_ne m ρ c main_v41 (by decide)
    _ = W6 m ρ c (Proc.devRef .tc main_v41) := StableHlo.after_of_forall_not_mem (b := Proc.devRef .tc main_v41) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat2 (V5 m ρ) c).arrAt 3 cfg2.N := W6_arr m ρ c 3

end Cert.KernelIdeal.Whole

end
-- ==== Proof.KernelFold.lean ====
/-
  THE CONTENTS EACH REGION FINDS, as functions of the launch memory.

  The buffers at the boundaries of @main's eight segments form a fold: a host stretch applies its operations, a region
  replaces its output array and leaves every other buffer. No host operation and no region writes an argument array, so at
  every boundary an argument holds its launch contents; the two columns of degree factors are computed by the first
  stretch and written by nothing after it. What the other stretches compute is read off their operations: the messages
  gathered along the edges' sources and added at the edges' targets, and the rows gathered for the users.
-/
import proofs.«128032_j73830487818453_2_alg».proof.Proof.KernelIdealFrameP
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

namespace Cert.KernelIdeal.Fold

open Cert.KernelIdeal Cert.KernelIdeal.Gen Cert.KernelIdeal.GenP
open Idealize.ShloMosaic Idealize.ShloMosaic.TcCoe Idealize.SL.Sem Idealize.ShloMosaic.StableHlo
open Idealize.ShloMosaic.Pipeline (Dat)

/-! ## The host stretches' computations -/

/-- A node's degree (the number of edges whose listed end it is, at least one) to the power −1/2, as a column. -/
def norm (idx : (⟨S1600000, .i32⟩ : BufTy).Contents (Elt Ideal)) : (⟨S50000x1, .f32⟩ : BufTy).Contents (Elt Ideal) :=
  Host.powf
    (broadcastInDim S50000x1 ![0] bcast_S50000_S50000x1_0
      (maximumf
        (Host.scatterAdd scatter_S50000_S1600000x1_S1600000_n_0_0_1
          (broadcastInDim S50000 ![] bcast_S_S50000 (constant (F := Ideal) S_ .f32 0x00000000#32))
          (broadcastInDim S1600000x1 ![0] bcast_S1600000_S1600000x1_0 idx)
          (broadcastInDim S1600000 ![] bcast_S_S1600000 (constant (F := Ideal) S_ .f32 0x3F800000#32)))
        (broadcastInDim S50000 ![] bcast_S_S50000 (constant (F := Ideal) S_ .f32 0x3F800000#32))))
    (broadcastInDim S50000x1 ![] bcast_S_S50000x1 (constant (F := Ideal) S_ .f32 0xBF000000#32))

/-- An edge's end with a negative index counted from the end of the node list. -/
def wrap (idx : (⟨S1600000, .i32⟩ : BufTy).Contents (Elt Ideal)) : (⟨S1600000, .i32⟩ : BufTy).Contents (Elt Ideal) :=
  select (cmpi .slt idx (broadcastInDim S1600000 ![] bcast_S_S1600000 (constantI S_ 32 0#32)))
    (addi idx (broadcastInDim S1600000 ![] bcast_S_S1600000 (constantI S_ 32 50000#32))) idx

/-- One round of message passing: every edge takes its source node's row, and the rows are added at the edges' targets. -/
def msg (hw : (⟨S50000x128, .bf16⟩ : BufTy).Contents (Elt Ideal)) (src dst : (⟨S1600000, .i32⟩ : BufTy).Contents (Elt Ideal)) :
    (⟨S50000x128, .f32⟩ : BufTy).Contents (Elt Ideal) :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 dst)
    (extf .f32 (Host.gather gather_S50000x128_S1600000x1_S1600000x128_1_0_n_n_0_1_1128 hw
      (broadcastInDim S1600000x1 ![0] bcast_S1600000_S1600000x1_0 (wrap src))) bitsLt_bf16_f32)

/-- A user's node with a negative index counted from the end of the node list. -/
def wrapU (idx : (⟨S10000, .i32⟩ : BufTy).Contents (Elt Ideal)) : (⟨S10000, .i32⟩ : BufTy).Contents (Elt Ideal) :=
  select (cmpi .slt idx (broadcastInDim S10000 ![] bcast_S_S10000 (constantI S_ 32 0#32)))
    (addi idx (broadcastInDim S10000 ![] bcast_S_S10000 (constantI S_ 32 50000#32))) idx

/-- The users' rows of the node output. -/
def pick (h : (⟨S50000x128, .f32⟩ : BufTy).Contents (Elt Ideal)) (users : (⟨S10000, .i32⟩ : BufTy).Contents (Elt Ideal)) :
    (⟨S10000x128, .f32⟩ : BufTy).Contents (Elt Ideal) :=
  Host.gather gather_S50000x128_S10000x1_S10000x128_1_0_n_n_0_1_1128 h
    (broadcastInDim S10000x1 ![0] bcast_S10000_S10000x1_0 (wrapU users))

variable (m : (ℓ : Loc nD τ sig) → Buf (Elt Ideal) ℓ) (ρ : Dev nD → PrngReg)

/-- No operation of a host stretch writes the buffer at hand, so the stretch leaves it. -/
macro "host_keep" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments at the boundaries where a region or a stretch reads them -/

/-- The features as the first region finds them. -/
theorem W1_x (c : Dev nD) : W1 m ρ c (Proc.devRef .tc main_arg0) = m ((c : Thread nD τ).loc main_arg0) :=
  calc W1 m ρ c (Proc.devRef .tc main_arg0)
    _ = W0 m ρ c (Proc.devRef .tc main_arg0) := by host_keep
    _ = m ((c : Thread nD τ).loc main_arg0) := rfl

/-- The first layer's weights as the first region finds them. -/
theorem W1_w0 (c : Dev nD) : W1 m ρ c (Proc.devRef .tc main_arg1) = m ((c : Thread nD τ).loc main_arg1) :=
  calc W1 m ρ c (Proc.devRef .tc main_arg1)
    _ = W0 m ρ c (Proc.devRef .tc main_arg1) := by host_keep
    _ = m ((c : Thread nD τ).loc main_arg1) := rfl

/-- The edges' sources as the second stretch finds them. -/
theorem W2_src (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by host_keep
    _ = m ((c : Thread nD τ).loc main_arg9) := rfl

/-- The edges' targets as the second stretch finds them. -/
theorem W2_dst (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := by host_keep
    _ = m ((c : Thread nD τ).loc main_arg10) := rfl

/-- The first layer's bias as the second region finds it. -/
theorem W3_b0 (c : Dev nD) : W3 m ρ c (Proc.devRef .tc main_arg2) = m ((c : Thread nD τ).loc main_arg2) :=
  calc W3 m ρ c (Proc.devRef .tc main_arg2)
    _ = W2 m ρ c (Proc.devRef .tc main_arg2) := by host_keep
    _ = W1 m ρ c (Proc.devRef .tc main_arg2) := W2_of_ne m ρ c main_arg2 (by decide)
    _ = W0 m ρ c (Proc.devRef .tc main_arg2) := by host_keep
    _ = m ((c : Thread nD τ).loc main_arg2) := rfl

/-- The second layer's weights as the second region finds them. -/
theorem W3_w1 (c : Dev nD) : W3 m ρ c (Proc.devRef .tc main_arg3) = m ((c : Thread nD τ).loc main_arg3) :=
  calc W3 m ρ c (Proc.devRef .tc main_arg3)
    _ = W2 m ρ c (Proc.devRef .tc main_arg3) := by host_keep
    _ = W1 m ρ c (Proc.devRef .tc main_arg3) := W2_of_ne m ρ c main_arg3 (by decide)
    _ = W0 m ρ c (Proc.devRef .tc main_arg3) := by host_keep
    _ = m ((c : Thread nD τ).loc main_arg3) := rfl

/-- The edges' sources as the third stretch finds them. -/
theorem W4_src (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by host_keep
    _ = W1 m ρ c (Proc.devRef .tc main_arg9) := W2_of_ne m ρ c main_arg9 (by decide)
    _ = W0 m ρ c (Proc.devRef .tc main_arg9) := by host_keep
    _ = m ((c : Thread nD τ).loc main_arg9) := rfl

/-- The edges' targets as the third stretch finds them. -/
theorem W4_dst (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by host_keep
    _ = W1 m ρ c (Proc.devRef .tc main_arg10) := W2_of_ne m ρ c main_arg10 (by decide)
    _ = W0 m ρ c (Proc.devRef .tc main_arg10) := by host_keep
    _ = m ((c : Thread nD τ).loc main_arg10) := rfl

/-- The second layer's bias as the third region finds it. -/
theorem W5_b1 (c : Dev nD) : W5 m ρ c (Proc.devRef .tc main_arg4) = m ((c : Thread nD τ).loc main_arg4) :=
  calc W5 m ρ c (Proc.devRef .tc main_arg4)
    _ = W4 m ρ c (Proc.devRef .tc main_arg4) := by host_keep
    _ = W3 m ρ c (Proc.devRef .tc main_arg4) := W4_of_ne m ρ c main_arg4 (by decide)
    _ = W2 m ρ c (Proc.devRef .tc main_arg4) := by host_keep
    _ = W1 m ρ c (Proc.devRef .tc main_arg4) := W2_of_ne m ρ c main_arg4 (by decide)
    _ = W0 m ρ c (Proc.devRef .tc main_arg4) := by host_keep
    _ = m ((c : Thread nD τ).loc main_arg4) := rfl

/-- The users as the fourth stretch finds them. -/
theorem W6_users (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by host_keep
    _ = W3 m ρ c (Proc.devRef .tc main_arg11) := W4_of_ne m ρ c main_arg11 (by decide)
    _ = W2 m ρ c (Proc.devRef .tc main_arg11) := by host_keep
    _ = W1 m ρ c (Proc.devRef .tc main_arg11) := W2_of_ne m ρ c main_arg11 (by decide)
    _ = W0 m ρ c (Proc.devRef .tc main_arg11) := by host_keep
    _ = m ((c : Thread nD τ).loc main_arg11) := rfl

/-- The head's first weights as the fourth region finds them. -/
theorem W7_ws1 (c : Dev nD) : W7 m ρ c (Proc.devRef .tc main_arg5) = m ((c : Thread nD τ).loc main_arg5) :=
  calc W7 m ρ c (Proc.devRef .tc main_arg5)
    _ = W6 m ρ c (Proc.devRef .tc main_arg5) := by host_keep
    _ = W5 m ρ c (Proc.devRef .tc main_arg5) := W6_of_ne m ρ c main_arg5 (by decide)
    _ = W4 m ρ c (Proc.devRef .tc main_arg5) := by host_keep
    _ = W3 m ρ c (Proc.devRef .tc main_arg5) := W4_of_ne m ρ c main_arg5 (by decide)
    _ = W2 m ρ c (Proc.devRef .tc main_arg5) := by host_keep
    _ = W1 m ρ c (Proc.devRef .tc main_arg5) := W2_of_ne m ρ c main_arg5 (by decide)
    _ = W0 m ρ c (Proc.devRef .tc main_arg5) := by host_keep
    _ = m ((c : Thread nD τ).loc main_arg5) := rfl

/-- The head's first bias as the fourth region finds it. -/
theorem W7_bs1 (c : Dev nD) : W7 m ρ c (Proc.devRef .tc main_arg6) = m ((c : Thread nD τ).loc main_arg6) :=
  calc W7 m ρ c (Proc.devRef .tc main_arg6)
    _ = W6 m ρ c (Proc.devRef .tc main_arg6) := by host_keep
    _ = W5 m ρ c (Proc.devRef .tc main_arg6) := W6_of_ne m ρ c main_arg6 (by decide)
    _ = W4 m ρ c (Proc.devRef .tc main_arg6) := by host_keep
    _ = W3 m ρ c (Proc.devRef .tc main_arg6) := W4_of_ne m ρ c main_arg6 (by decide)
    _ = W2 m ρ c (Proc.devRef .tc main_arg6) := by host_keep
    _ = W1 m ρ c (Proc.devRef .tc main_arg6) := W2_of_ne m ρ c main_arg6 (by decide)
    _ = W0 m ρ c (Proc.devRef .tc main_arg6) := by host_keep
    _ = m ((c : Thread nD τ).loc main_arg6) := rfl

/-- The head's second weights as the fourth region finds them. -/
theorem W7_ws2 (c : Dev nD) : W7 m ρ c (Proc.devRef .tc main_arg7) = m ((c : Thread nD τ).loc main_arg7) :=
  calc W7 m ρ c (Proc.devRef .tc main_arg7)
    _ = W6 m ρ c (Proc.devRef .tc main_arg7) := by host_keep
    _ = W5 m ρ c (Proc.devRef .tc main_arg7) := W6_of_ne m ρ c main_arg7 (by decide)
    _ = W4 m ρ c (Proc.devRef .tc main_arg7) := by host_keep
    _ = W3 m ρ c (Proc.devRef .tc main_arg7) := W4_of_ne m ρ c main_arg7 (by decide)
    _ = W2 m ρ c (Proc.devRef .tc main_arg7) := by host_keep
    _ = W1 m ρ c (Proc.devRef .tc main_arg7) := W2_of_ne m ρ c main_arg7 (by decide)
    _ = W0 m ρ c (Proc.devRef .tc main_arg7) := by host_keep
    _ = m ((c : Thread nD τ).loc main_arg7) := rfl

/-- The head's second bias as the fourth region finds it. -/
theorem W7_bs2 (c : Dev nD) : W7 m ρ c (Proc.devRef .tc main_arg8) = m ((c : Thread nD τ).loc main_arg8) :=
  calc W7 m ρ c (Proc.devRef .tc main_arg8)
    _ = W6 m ρ c (Proc.devRef .tc main_arg8) := by host_keep
    _ = W5 m ρ c (Proc.devRef .tc main_arg8) := W6_of_ne m ρ c main_arg8 (by decide)
    _ = W4 m ρ c (Proc.devRef .tc main_arg8) := by host_keep
    _ = W3 m ρ c (Proc.devRef .tc main_arg8) := W4_of_ne m ρ c main_arg8 (by decide)
    _ = W2 m ρ c (Proc.devRef .tc main_arg8) := by host_keep
    _ = W1 m ρ c (Proc.devRef .tc main_arg8) := W2_of_ne m ρ c main_arg8 (by decide)
    _ = W0 m ρ c (Proc.devRef .tc main_arg8) := by host_keep
    _ = m ((c : Thread nD τ).loc main_arg8) := rfl

/-! ## The degree factors -/

/-- The source-side factors after the first stretch. -/
theorem W1_s (c : Dev nD) : W1 m ρ c (Proc.devRef .tc main_v11) = norm (m ((c : Thread nD τ).loc main_arg9)) := by
  show StableHlo.after hostOps0 (W0 m ρ c) (Proc.devRef .tc main_v11) = _
  after_results
  rfl

/-- The target-side factors after the first stretch. -/
theorem W1_d (c : Dev nD) : W1 m ρ c (Proc.devRef .tc main_v16) = norm (m ((c : Thread nD τ).loc main_arg10)) := by
  show StableHlo.after hostOps0 (W0 m ρ c) (Proc.devRef .tc main_v16) = _
  after_results
  rfl

/-- The source-side factors reach the second region as the first stretch left them. -/
theorem W3_s_back (c : Dev nD) : W3 m ρ c (Proc.devRef .tc main_v11) = W1 m ρ c (Proc.devRef .tc main_v11) :=
  calc W3 m ρ c (Proc.devRef .tc main_v11)
    _ = W2 m ρ c (Proc.devRef .tc main_v11) := by host_keep
    _ = W1 m ρ c (Proc.devRef .tc main_v11) := (W2_arr m ρ c 2).trans (((dat0 (V1 m ρ) c).arrAt_in 2 rfl _).trans (A_eq0 (V1 m ρ) c 2))

/-- The target-side factors reach the second region as the first stretch left them. -/
theorem W3_d_back (c : Dev nD) : W3 m ρ c (Proc.devRef .tc main_v16) = W1 m ρ c (Proc.devRef .tc main_v16) :=
  calc W3 m ρ c (Proc.devRef .tc main_v16)
    _ = W2 m ρ c (Proc.devRef .tc main_v16) := by host_keep
    _ = W1 m ρ c (Proc.devRef .tc main_v16) := W2_of_ne m ρ c main_v16 (by decide)

/-- The target-side factors reach the third region as the first stretch left them. -/
theorem W5_d_back (c : Dev nD) : W5 m ρ c (Proc.devRef .tc main_v16) = W1 m ρ c (Proc.devRef .tc main_v16) :=
  calc W5 m ρ c (Proc.devRef .tc main_v16)
    _ = W4 m ρ c (Proc.devRef .tc main_v16) := by host_keep
    _ = W3 m ρ c (Proc.devRef .tc main_v16) := (W4_arr m ρ c 1).trans (((dat1 (V3 m ρ) c).arrAt_in 1 rfl _).trans (A_eq1 (V3 m ρ) c 1))
    _ = W2 m ρ c (Proc.devRef .tc main_v16) := by host_keep
    _ = W1 m ρ c (Proc.devRef .tc main_v16) := W2_of_ne m ρ c main_v16 (by decide)

/-! ## What the later stretches compute -/

/-- The second stretch: one round of message passing on the first region's output. -/
theorem W3_agg (c : Dev nD) : W3 m ρ c (Proc.devRef .tc main_v28)
    = msg (W2 m ρ c (Proc.devRef .tc main_v17)) (W2 m ρ c (Proc.devRef .tc main_arg9)) (W2 m ρ c (Proc.devRef .tc main_arg10)) := by
  show StableHlo.after hostOps1 (W2 m ρ c) (Proc.devRef .tc main_v28) = _
  after_results
  rfl

/-- The third stretch: one round of message passing on the second region's output. -/
theorem W5_agg (c : Dev nD) : W5 m ρ c (Proc.devRef .tc main_v40)
    = msg (W4 m ρ c (Proc.devRef .tc main_v29)) (W4 m ρ c (Proc.devRef .tc main_arg9)) (W4 m ρ c (Proc.devRef .tc main_arg10)) := by
  show StableHlo.after hostOps2 (W4 m ρ c) (Proc.devRef .tc main_v40) = _
  after_results
  rfl

/-- The fourth stretch: the users' rows of the third region's output. -/
theorem W7_pick (c : Dev nD) : W7 m ρ c (Proc.devRef .tc main_v48)
    = pick (W6 m ρ c (Proc.devRef .tc main_v41)) (W6 m ρ c (Proc.devRef .tc main_arg11)) := by
  show StableHlo.after hostOps3 (W6 m ρ c) (Proc.devRef .tc main_v48) = _
  after_results
  rfl

end Cert.KernelIdeal.Fold

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibSegSum.lean ====
/-
  Gathering rows by an index list and adding rows into segments, read at an index, and the law that lets a factor
  which depends only on the SEGMENT leave a segment sum.

  * a gather of whole rows of an [N, C] array at start indices [R, 1] reads row clamp(idx e) of the operand, and the
    rank-1 form (an [N] vector gathered at [R, 1]) reads entry clamp(idx e);
  * an update (e, k) of an add-scatter of [R, C] updates into an [N, C] operand at scatter indices [R, 1] lands on
    element (n, k') only if the signed index of e IS n;
  * on the extended reals a factor D with 0 ≤ D < ⊤ distributes over a finite sum, whatever the summands are
    (no summand needs to be finite);
  * hence, for per-node factors D that are all in [0, ⊤): scaling the gathered rows by D at their SOURCE node before the
    segment sum and the sum by D at the TARGET node after it gives, element by element, the segment sum of the rows each
    scaled by the product of the two factors gathered per edge — provided the edge's target factor is gathered at the
    index the scatter itself uses whenever that index is in range (the update is dropped otherwise).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibSegSum

open Idealize.ShloMosaic Idealize.ShloMosaic.ValueIdx

/-! ## The dimension numbers -/

/-- Rows of an [N, C] operand gathered at start indices [R, 1]: result [R, C]. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entries of an [N] operand gathered at start indices [R, 1]: result [R]. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Rows [R, C] added into an [N, C] operand at scatter indices [R, 1]. -/
abbrev addRowsDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The start-indices index [e, 0] of edge e. -/
abbrev at0 {R : Nat} (e : Fin R) : (⟨2, ![R, 1]⟩ : Shape).Idx := ix2 e (⟨0, Nat.one_pos⟩ : Fin 1)

/-- A signed index clamped into [0, N − 1]. -/
abbrev clampIx {N : Nat} (hN : 0 < N) (v : BitVec 32) : Fin N := ⟨min v.toInt.toNat (N - 1), by omega⟩

/-! ## The gathers read at an index -/

section Gather
variable {α : Type}

theorem gather_rows_apply {N R C : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (e : Fin R) (k : Fin C) :
    Host.gather (rowsDims N R C wf) x idx (ix2 e k) = x (ix2 (clampIx hN (idx (at0 e))) k) := by
  unfold Host.gather
  congr 1
  funext a
  refine Fin.ext ?_
  have hsi : (rowsDims N R C wf).siIdx (ix2 e k) ⟨List.idxOf (0 : Fin 2) (rowsDims N R C wf).startIndexMap,
      List.idxOf_lt_length_iff.2 (List.mem_singleton.mpr rfl)⟩ = at0 e := by
    funext b; refine Fin.ext ?_
    match b with
    | ⟨0, _⟩ => rfl
    | ⟨1, _⟩ => rfl
  match a with
  | ⟨0, _⟩ =>
    show (rowsDims N R C wf).start (ix2 e k) idx 0 + (rowsDims N R C wf).batchCoord (ix2 e k) 0
      + (rowsDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    rw [hsi]
    rfl
  | ⟨1, _⟩ =>
    show (rowsDims N R C wf).start (ix2 e k) idx 1 + (rowsDims N R C wf).batchCoord (ix2 e k) 1
      + (rowsDims N R C wf).offCoord (ix2 e k) 1 = _
    rw [GatherDims.batchCoord_eq_zero _ _ _ List.not_mem_nil]
    unfold GatherDims.start
    rw [dif_neg (show (1 : Fin 2) ∉ (rowsDims N R C wf).startIndexMap from (by decide : (1 : Fin 2) ∉ ([0] : List (Fin 2))))]
    simp only [Nat.add_zero, Nat.zero_add]
    rfl

theorem gather_entries_apply {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (e : Fin R) :
    Host.gather (entriesDims N R wf) x idx (ix1 e) = x (ix1 (clampIx hN (idx (at0 e)))) := by
  unfold Host.gather
  congr 1
  funext a
  obtain rfl : a = 0 := Subsingleton.elim _ _
  refine Fin.ext ?_
  show (entriesDims N R wf).start (ix1 e) idx 0 + (entriesDims N R wf).batchCoord (ix1 e) 0
    + (entriesDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 e) ⟨List.idxOf (0 : Fin 1) (entriesDims N R wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

end Gather

/-! ## Where an added row lands -/

theorem addRows_lands {N R C : Nat}
    (wf : ScatterDims.WF ⟨2, ![N, C]⟩ ⟨2, ![R, 1]⟩ ⟨2, ![R, C]⟩ [1] [0] [0] 1)
    (idx : IVec ⟨2, ![R, 1]⟩ 32) (e : Fin R) (k : Fin C) (i : (⟨2, ![N, C]⟩ : Shape).Idx)
    (h : (addRowsDims N R C wf).resultIdx? (ix2 e k) idx = some i) :
    (idx (at0 e)).toInt = ((i 0).val : Int) := by
  have hsi : (addRowsDims N R C wf).siIdx (ix2 e k) ⟨List.idxOf (0 : Fin 2) (addRowsDims N R C wf).scatterDimsToOperandDims,
      List.idxOf_lt_length_iff.2 (List.mem_singleton.mpr rfl)⟩ = at0 e := by
    funext b; refine Fin.ext ?_
    match b with
    | ⟨0, _⟩ => rfl
    | ⟨1, _⟩ => rfl
  have hstart : (addRowsDims N R C wf).start (ix2 e k) idx 0 = (idx (at0 e)).toInt := by
    unfold ScatterDims.start
    rw [dif_pos (show (0 : Fin 2) ∈ (addRowsDims N R C wf).scatterDimsToOperandDims from List.mem_singleton.mpr rfl), hsi]
  have hwin : (addRowsDims N R C wf).window (ix2 e k) 0 = 0 := by
    unfold ScatterDims.window
    rw [dif_neg (show (0 : Fin 2) ∉ (addRowsDims N R C wf).sKept from (by decide : (0 : Fin 2) ∉ (List.finRange 2).filter (· ∉ ([0] : List (Fin 2)))))]
  unfold ScatterDims.resultIdx? at h
  split at h
  · rename_i hin
    have h0 := congrArg (fun f => (f 0).val) (Option.some.inj h)
    simp only at h0
    have hb := (hin 0).1
    rw [hstart, hwin] at h0 hb
    simp only [Nat.cast_zero, add_zero] at h0 hb
    omega
  · exact absurd h (by simp)

/-! ## A factor in [0, ⊤) leaves a sum -/

theorem sum_mul_of_nonneg_ne_top {ι : Type} [DecidableEq ι] (s : Finset ι) (f : ι → EReal) (D : EReal)
    (h0 : 0 ≤ D) (ht : D ≠ ⊤) : (∑ j ∈ s, f j) * D = ∑ j ∈ s, f j * D := by
  induction s using Finset.induction_on with
  | empty => simp
  | insert a s ha ih =>
    rw [Finset.sum_insert ha, Finset.sum_insert ha, EReal.right_distrib_of_nonneg_of_ne_top h0 ht, ih]

/-! ## Two keepdims broadcasts in a row: a vector down the rows of a matrix -/

section Bcast
variable {α : Type}

/-- [A] → [A, 1] → [A, B], read at (a, b): the vector's entry a. -/
theorem bcast_col_apply {A B : Nat}
    (h1 : (⟨1, ![A]⟩ : Shape).BroadcastsInDim ⟨2, ![A, 1]⟩ ![0])
    (h2 : (⟨2, ![A, 1]⟩ : Shape).BroadcastsInDim ⟨2, ![A, B]⟩ ![0, 1])
    (v : (⟨1, ![A]⟩ : Shape).Idx → α) (a : Fin A) (b : Fin B) :
    broadcastInDim ⟨2, ![A, B]⟩ ![0, 1] h2 (broadcastInDim ⟨2, ![A, 1]⟩ ![0] h1 v) (ix2 a b) = v (ix1 a) := by
  refine (broadcastInDim_apply ![0, 1] h2 _ (ix2 a b) (ix2 a (⟨0, Nat.one_pos⟩ : Fin 1)) fun d => ?_).trans
    (broadcastInDim_apply ![0] h1 v (ix2 a (⟨0, Nat.one_pos⟩ : Fin 1)) (ix1 a) fun d => ?_)
  · match d with
    | ⟨0, _⟩ =>
      show a.val = if A = 1 then 0 else a.val
      split
      · have := a.isLt; omega
      · rfl
    | ⟨1, _⟩ => exact (if_pos rfl).symm
  · match d with
    | ⟨0, _⟩ =>
      show a.val = if A = 1 then 0 else a.val
      split
      · have := a.isLt; omega
      · rfl

/-- [A] → [A, 1], read at (a, 0): the vector's entry a. -/
theorem bcast_unit_apply {A : Nat}
    (h1 : (⟨1, ![A]⟩ : Shape).BroadcastsInDim ⟨2, ![A, 1]⟩ ![0])
    (v : (⟨1, ![A]⟩ : Shape).Idx → α) (a : Fin A) :
    broadcastInDim ⟨2, ![A, 1]⟩ ![0] h1 v (at0 a) = v (ix1 a) := by
  refine broadcastInDim_apply ![0] h1 v (at0 a) (ix1 a) fun d => ?_
  match d with
  | ⟨0, _⟩ =>
    show a.val = if A = 1 then 0 else a.val
    split
    · have := a.isLt; omega
    · rfl

/-- [B] → [1, B] → [A, B], read at (a, b): the vector's entry b. -/
theorem bcast_row_apply {A B : Nat}
    (h1 : (⟨1, ![B]⟩ : Shape).BroadcastsInDim ⟨2, ![1, B]⟩ ![1])
    (h2 : (⟨2, ![1, B]⟩ : Shape).BroadcastsInDim ⟨2, ![A, B]⟩ ![0, 1])
    (v : (⟨1, ![B]⟩ : Shape).Idx → α) (a : Fin A) (b : Fin B) :
    broadcastInDim ⟨2, ![A, B]⟩ ![0, 1] h2 (broadcastInDim ⟨2, ![1, B]⟩ ![1] h1 v) (ix2 a b) = v (ix1 b) := by
  refine (broadcastInDim_apply ![0, 1] h2 _ (ix2 a b) (ix2 (⟨0, Nat.one_pos⟩ : Fin 1) b) fun d => ?_).trans
    (broadcastInDim_apply ![1] h1 v (ix2 (⟨0, Nat.one_pos⟩ : Fin 1) b) (ix1 b) fun d => ?_)
  · match d with
    | ⟨0, _⟩ => exact (if_pos rfl).symm
    | ⟨1, _⟩ =>
      show b.val = if B = 1 then 0 else b.val
      split
      · have := b.isLt; omega
      · rfl
  · match d with
    | ⟨0, _⟩ =>
      show b.val = if B = 1 then 0 else b.val
      split
      · have := b.isLt; omega
      · rfl

end Bcast

/-! ## A negative index wrapped, an index that is not negative left alone -/

/-- select(v < 0, a, v) is v when v is not negative as a signed word. -/
theorem wrap_of_nonneg (v a : BitVec 32) (h : 0 ≤ v.toInt) : Scalar.select (IntOp.cmpi .slt v 0#32) a v = v := by
  have hs : v.slt 0#32 = false := by
    simp only [BitVec.slt, BitVec.toInt_zero, decide_eq_false_iff_not, not_lt]
    exact h
  have hc : IntOp.cmpi .slt v 0#32 = 0#1 := by
    show BitVec.ofBool (v.slt 0#32) = 0#1
    rw [hs]; rfl
  rw [hc]
  exact select_zero _ _

/-! ## The inverse square root of a degree, guarded at zero, lies in [0, ⊤) -/

theorem rsqrt_range (v : EReal) (hv : 0 < v) : 0 ≤ Ideal.rsqrt v ∧ Ideal.rsqrt v ≠ ⊤ := by
  induction v using EReal.rec with
  | bot => exact absurd hv (by simp)
  | coe r =>
    have hr : 0 < r := by exact_mod_cast hv
    rw [Ideal.rsqrt_coe, if_neg (not_lt.mpr hr.le), if_neg hr.ne']
    exact ⟨by exact_mod_cast (inv_nonneg.mpr (Real.sqrt_nonneg r)), EReal.coe_ne_top _⟩
  | top => rw [Ideal.rsqrt_top]; exact ⟨le_refl _, EReal.zero_ne_top⟩

/-- select(g > z, rsqrt(max(g, ε)), z) with ε > 0 and z = 0 is a number in [0, ⊤), whatever g is. -/
theorem guarded_rsqrt_range (g eps z : EReal) (heps : 0 < eps) (hz : z = 0) :
    0 ≤ Scalar.select (Ideal.cmp .ogt g z) (Ideal.rsqrt (max g eps)) z
      ∧ Scalar.select (Ideal.cmp .ogt g z) (Ideal.rsqrt (max g eps)) z ≠ ⊤ := by
  unfold Scalar.select
  split
  · exact rsqrt_range _ (lt_of_lt_of_le heps (le_max_right _ _))
  · rw [hz]; exact ⟨le_refl _, EReal.zero_ne_top⟩

/-! ## The law -/

/-- Rows scaled by D at the source before the segment sum and by D at the target after it, against the rows scaled per
    edge by the product of the two gathered factors: equal element by element when every D is in [0, ⊤), the operand
    being added into is zero, and the target factor's gather index is the scatter's own index wherever that is not
    negative. -/
theorem hoist {N R C : Nat} (hN : 0 < N)
    (wfS : ScatterDims.WF ⟨2, ![N, C]⟩ ⟨2, ![R, 1]⟩ ⟨2, ![R, C]⟩ [1] [0] [0] 1)
    (wfG : GatherDims.WF ⟨2, ![N, C]⟩ ⟨2, ![R, 1]⟩ ⟨2, ![R, C]⟩ [1] [0] [] [0] [] 1 ![1, C])
    (wfV : GatherDims.WF ⟨1, ![N]⟩ ⟨2, ![R, 1]⟩ ⟨1, ![R]⟩ [] [0] [] [0] [] 1 ![1])
    (h1 : (⟨1, ![N]⟩ : Shape).BroadcastsInDim ⟨2, ![N, 1]⟩ ![0])
    (h2 : (⟨2, ![N, 1]⟩ : Shape).BroadcastsInDim ⟨2, ![N, C]⟩ ![0, 1])
    (g1 : (⟨1, ![R]⟩ : Shape).BroadcastsInDim ⟨2, ![R, 1]⟩ ![0])
    (g2 : (⟨2, ![R, 1]⟩ : Shape).BroadcastsInDim ⟨2, ![R, C]⟩ ![0, 1])
    (Z XL : FVec Ideal ⟨2, ![N, C]⟩ .f32) (hZ : ∀ i, Z i = 0)
    (D : FVec Ideal ⟨1, ![N]⟩ .f32) (hD : ∀ n, 0 ≤ D n ∧ D n ≠ ⊤)
    (rW cW cB : IVec ⟨2, ![R, 1]⟩ 32)
    (hW : ∀ e : Fin R, 0 ≤ (cB (at0 e)).toInt → cW (at0 e) = cB (at0 e)) :
    mulf (Host.scatterAdd (addRowsDims N R C wfS) Z cB
        (Host.gather (rowsDims N R C wfG)
          (mulf XL (broadcastInDim ⟨2, ![N, C]⟩ ![0, 1] h2 (broadcastInDim ⟨2, ![N, 1]⟩ ![0] h1 D))) rW))
      (broadcastInDim ⟨2, ![N, C]⟩ ![0, 1] h2 (broadcastInDim ⟨2, ![N, 1]⟩ ![0] h1 D))
    = Host.scatterAdd (addRowsDims N R C wfS) Z cB
        (mulf (Host.gather (rowsDims N R C wfG) XL rW)
          (broadcastInDim ⟨2, ![R, C]⟩ ![0, 1] g2 (broadcastInDim ⟨2, ![R, 1]⟩ ![0] g1
            (mulf (Host.gather (entriesDims N R wfV) D rW) (Host.gather (entriesDims N R wfV) D cW))))) := by
  funext i
  obtain ⟨n, k, rfl⟩ : ∃ (n : Fin N) (k : Fin C), i = ix2 n k := ⟨i 0, i 1, eq_ix2 i⟩
  rw [mulf_apply, bcast_col_apply]
  simp only [Host.scatterAdd, Ideal.hostScatterAdd_def, Ideal.hostScatterAdd]
  rw [hZ, zero_add, zero_add, sum_mul_of_nonneg_ne_top _ _ _ (hD _).1 (hD _).2]
  refine Finset.sum_congr rfl fun j hj => ?_
  obtain ⟨e, k', rfl⟩ : ∃ (e : Fin R) (k' : Fin C), j = ix2 e k' := ⟨j 0, j 1, eq_ix2 j⟩
  have hland := addRows_lands wfS cB e k' (ix2 n k) (Finset.mem_filter.mp hj).2
  have hcl : clampIx hN (cW (at0 e)) = n := by
    rw [hW e (by rw [hland]; exact Int.natCast_nonneg _)]
    refine Fin.ext ?_
    show min (cB (at0 e)).toInt.toNat (N - 1) = n.val
    have hn := n.isLt
    rw [hland]
    show min ((n.val : Int)).toNat (N - 1) = n.val
    rw [Int.toNat_natCast]
    omega
  rw [gather_rows_apply hN, mulf_apply, bcast_col_apply, mulf_apply, gather_rows_apply hN, bcast_col_apply, mulf_apply,
    gather_entries_apply hN, gather_entries_apply hN, hcl, mul_assoc]

end Cert.LibSegSum

end
-- ==== Proof.LibDenseLayer.lean ====
/-
  DENSE-LAYER STAGES AS FUNCTIONS OF WHOLE ARRAYS, element by element on the extended reals, generic in the extents:
  a plain product, a bias added to every row followed by a maximum with a constant, a bias added to every row; and
  the host operations (dot_general; two keepdims broadcasts of a vector, add, maximum with a broadcast scalar) that
  compute them. Nothing here depends on a program.

  * `prod X W`      — the plain product  [A, K] · [K, B] → [A, B]:  (r, c) ↦ Σ_k X(r, k) · W(k, c);
  * `actRow Z b z`  — the bias row b : [1, K] added to every row of Z : [A, K], then the maximum with z;
  * `act Z b z`     — the same with the bias a vector b : [K];
  * `addRowRow`, `addRow` — a row o : [1, B] (a vector o : [B]) added to every row of Y : [A, B].

  A vector cast to a one-row matrix reads its entry k at (0, k), so the row forms and the vector forms agree.
  The host's dot_general of a plain product is `prod`; two keepdims broadcasts [K] → [1, K] → [A, K] of a vector read
  its entry k at (a, k), so the host's bias-add-then-maximum is `act` and its bias add is `addRow`.
-/
import proofs.«128032_j73830487818453_2_alg».proof.Proof.LibPlainDot
import proofs.«128032_j73830487818453_2_alg».proof.Proof.LibSegSum
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Layer

open Idealize.ShloMosaic Idealize.ShloMosaic.ValueIdx

variable {A K B : Nat}

/-- The plain product of an [A, K] array with a [K, B] array. -/
def prod (X : (⟨2, ![A, K]⟩ : Shape).Idx → EReal) (W : (⟨2, ![K, B]⟩ : Shape).Idx → EReal) :
    (⟨2, ![A, B]⟩ : Shape).Idx → EReal :=
  fun i => ∑ k : Fin K, X (ix2 (i 0) k) * W (ix2 k (i 1))

/-- A bias ROW added to every row, then the maximum with `z`. -/
def actRow (Z : (⟨2, ![A, K]⟩ : Shape).Idx → EReal) (b : (⟨2, ![1, K]⟩ : Shape).Idx → EReal) (z : EReal) :
    (⟨2, ![A, K]⟩ : Shape).Idx → EReal :=
  fun i => max (Z i + b (ix2 (0 : Fin 1) (i 1))) z

/-- A bias VECTOR added to every row, then the maximum with `z`. -/
def act (Z : (⟨2, ![A, K]⟩ : Shape).Idx → EReal) (b : (⟨1, ![K]⟩ : Shape).Idx → EReal) (z : EReal) :
    (⟨2, ![A, K]⟩ : Shape).Idx → EReal :=
  fun i => max (Z i + b (ix1 (i 1))) z

/-- A ROW added to every row. -/
def addRowRow (Y : (⟨2, ![A, B]⟩ : Shape).Idx → EReal) (o : (⟨2, ![1, B]⟩ : Shape).Idx → EReal) :
    (⟨2, ![A, B]⟩ : Shape).Idx → EReal :=
  fun i => Y i + o (ix2 (0 : Fin 1) (i 1))

/-- A VECTOR added to every row. -/
def addRow (Y : (⟨2, ![A, B]⟩ : Shape).Idx → EReal) (o : (⟨1, ![B]⟩ : Shape).Idx → EReal) :
    (⟨2, ![A, B]⟩ : Shape).Idx → EReal :=
  fun i => Y i + o (ix1 (i 1))

/-- The row form at the vector cast to one row is the vector form. -/
theorem actRow_cast (Z : (⟨2, ![A, K]⟩ : Shape).Idx → EReal) (b : (⟨1, ![K]⟩ : Shape).Idx → EReal)
    (h : (⟨1, ![K]⟩ : Shape).ShapeCasts ⟨2, ![1, K]⟩) (z : EReal) :
    actRow Z (shapeCast ⟨2, ![1, K]⟩ b h) z = act Z b z :=
  funext fun i => by
    obtain ⟨a, k, rfl⟩ : ∃ (a : Fin A) (k : Fin K), i = ix2 a k := ⟨i 0, i 1, eq_ix2 i⟩
    show max (Z (ix2 a k) + shapeCast ⟨2, ![1, K]⟩ b h (ix2 (0 : Fin 1) k)) z = max (Z (ix2 a k) + b (ix1 k)) z
    rw [shapeCast_a_1a_apply]

theorem addRowRow_cast (Y : (⟨2, ![A, B]⟩ : Shape).Idx → EReal) (o : (⟨1, ![B]⟩ : Shape).Idx → EReal)
    (h : (⟨1, ![B]⟩ : Shape).ShapeCasts ⟨2, ![1, B]⟩) :
    addRowRow Y (shapeCast ⟨2, ![1, B]⟩ o h) = addRow Y o :=
  funext fun i => by
    obtain ⟨a, k, rfl⟩ : ∃ (a : Fin A) (k : Fin B), i = ix2 a k := ⟨i 0, i 1, eq_ix2 i⟩
    show Y (ix2 a k) + shapeCast ⟨2, ![1, B]⟩ o h (ix2 (0 : Fin 1) k) = Y (ix2 a k) + o (ix1 k)
    rw [shapeCast_a_1a_apply]

/-- The host's dot_general of a plain product (whatever record spells its dimension numbers) is `prod`. -/
theorem dotGeneral_eq_prod (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ .f32) (W : FVec Ideal ⟨2, ![K, B]⟩ .f32) :
    Host.dotGeneral d none X W = prod X W := by
  rw [Cert.Lib.PlainDot.eq_plain d h1 h2 h3 h4 h5 h6]
  exact funext fun i => Cert.Lib.PlainDot.dotGeneral_plain_apply none X W i

/-- The host's bias add (the vector broadcast to one row, the row to every row) and maximum with a broadcast
    scalar constant is `act` at that constant's value. -/
theorem hostAct_eq (Z : FVec Ideal ⟨2, ![A, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![A, K]⟩ ![0, 1])
    (z : FVec Ideal ⟨0, ![]⟩ .f32) (h0 : (⟨0, ![]⟩ : Shape).BroadcastsInDim ⟨2, ![A, K]⟩ ![]) :
    maximumf (addf Z (broadcastInDim ⟨2, ![A, K]⟩ ![0, 1] h2 (broadcastInDim ⟨2, ![1, K]⟩ ![1] h1 b)))
        (broadcastInDim ⟨2, ![A, K]⟩ ![] h0 z)
      = act Z b (z ix0) :=
  funext fun i => by
    obtain ⟨a, k, rfl⟩ : ∃ (a : Fin A) (k : Fin K), i = ix2 a k := ⟨i 0, i 1, eq_ix2 i⟩
    show max (Z (ix2 a k) + broadcastInDim ⟨2, ![A, K]⟩ ![0, 1] h2 (broadcastInDim ⟨2, ![1, K]⟩ ![1] h1 b) (ix2 a k))
        (broadcastInDim ⟨2, ![A, K]⟩ ![] h0 z (ix2 a k)) = max (Z (ix2 a k) + b (ix1 k)) (z ix0)
    have hz : broadcastInDim ⟨2, ![A, K]⟩ ![] h0 z (ix2 a k) = z ix0 :=
      broadcastInDim_apply ![] h0 z (ix2 a k) ix0 fun d => d.elim0
    rw [hz, Cert.LibSegSum.bcast_row_apply]

/-- The host's bias add of a vector to every row is `addRow`. -/
theorem hostAddRow_eq (Y : FVec Ideal ⟨2, ![A, B]⟩ .f32) (o : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1]) :
    addf Y (broadcastInDim ⟨2, ![A, B]⟩ ![0, 1] h2 (broadcastInDim ⟨2, ![1, B]⟩ ![1] h1 o)) = addRow Y o :=
  funext fun i => by
    obtain ⟨a, k, rfl⟩ : ∃ (a : Fin A) (k : Fin B), i = ix2 a k := ⟨i 0, i 1, eq_ix2 i⟩
    show Y (ix2 a k) + broadcastInDim ⟨2, ![A, B]⟩ ![0, 1] h2 (broadcastInDim ⟨2, ![1, B]⟩ ![1] h1 o) (ix2 a k)
      = Y (ix2 a k) + o (ix1 k)
    rw [Cert.LibSegSum.bcast_row_apply]

end Cert.Layer

end
-- ==== Proof.LibRowLocal.lean ====
/-
  DENSE STAGES THAT ACT ROW BY ROW, as functions of whole arrays on the extended reals, generic in the extents.

  * `scaleRows Y s`  — row a of Y : [A, B] multiplied by the entry s(a, 0) of a column s : [A, 1];
  * `mapEntries f Y` — a function of one extended real applied to every entry.

  Three things are proved about them and about the product, the bias-then-maximum and the bias add of the dense-layer
  file (`prod`, `act`, `addRow`):

  1. the HOST's spelling is the stage: a column broadcast along the rows by `broadcast_in_dim` and multiplied;
  2. a KERNEL's spelling is the stage: a matmul into the zero accumulator is `prod`; a column cast to its own shape,
     broadcast along the rows and multiplied is `scaleRows`; a vector cast to one row, broadcast down the rows, added and
     met with a broadcast scalar is `act`, without the maximum `addRow`;
  3. each stage is ROW-LOCAL: if a block x : [a, ·] holds the rows e(0), …, e(a−1) of X : [A, ·] (and a block of the
     column the same rows of the column), then the stage of the blocks, read at (p, q), is the stage of the whole arrays
     read at (e p, q). A matrix that is not cut (the weights, the bias) is the same on both sides.

  Nothing here depends on a program.
-/
import proofs.«128032_j73830487818453_2_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RowLocal

open Idealize.ShloMosaic Idealize.ShloMosaic.ValueIdx Cert.Layer

variable {A K B : Nat}

/-- The index (a, 0) of a column. -/
abbrev col0 (a : Fin A) : (⟨2, ![A, 1]⟩ : Shape).Idx := ix2 a (⟨0, Nat.one_pos⟩ : Fin 1)

/-- Row a of Y multiplied by s(a, 0). -/
def scaleRows (Y : (⟨2, ![A, B]⟩ : Shape).Idx → EReal) (s : (⟨2, ![A, 1]⟩ : Shape).Idx → EReal) :
    (⟨2, ![A, B]⟩ : Shape).Idx → EReal :=
  fun i => Y i * s (col0 (i 0))

/-- A function of one extended real applied entry by entry. -/
def mapEntries (f : EReal → EReal) (Y : (⟨2, ![A, B]⟩ : Shape).Idx → EReal) : (⟨2, ![A, B]⟩ : Shape).Idx → EReal :=
  fun i => f (Y i)

theorem scaleRows_apply (Y : (⟨2, ![A, B]⟩ : Shape).Idx → EReal) (s : (⟨2, ![A, 1]⟩ : Shape).Idx → EReal)
    (a : Fin A) (b : Fin B) : scaleRows Y s (ix2 a b) = Y (ix2 a b) * s (col0 a) := rfl

/-! ## The host's spelling -/

/-- A column [A, 1] broadcast along the rows to [A, B], read at (a, b): the column's entry (a, 0). -/
theorem bcastCol_apply (h : (⟨2, ![A, 1]⟩ : Shape).BroadcastsInDim ⟨2, ![A, B]⟩ ![0, 1])
    (s : (⟨2, ![A, 1]⟩ : Shape).Idx → EReal) (a : Fin A) (b : Fin B) :
    broadcastInDim ⟨2, ![A, B]⟩ ![0, 1] h s (ix2 a b) = s (col0 a) := by
  refine broadcastInDim_apply ![0, 1] h s (ix2 a b) (col0 a) fun d => ?_
  match d with
  | ⟨0, _⟩ =>
    show a.val = if A = 1 then 0 else a.val
    split
    · have := a.isLt; omega
    · rfl
  | ⟨1, _⟩ => exact (if_pos rfl).symm

/-- The host's product with a column broadcast along the rows is `scaleRows`. -/
theorem hostScale_eq (Y : FVec Ideal ⟨2, ![A, B]⟩ .f32) (s : FVec Ideal ⟨2, ![A, 1]⟩ .f32)
    (h : (⟨2, ![A, 1]⟩ : Shape).BroadcastsInDim ⟨2, ![A, B]⟩ ![0, 1]) :
    mulf Y (broadcastInDim ⟨2, ![A, B]⟩ ![0, 1] h s) = scaleRows Y s :=
  funext fun i => by
    obtain ⟨a, b, rfl⟩ : ∃ (a : Fin A) (b : Fin B), i = ix2 a b := ⟨i 0, i 1, eq_ix2 i⟩
    show Y (ix2 a b) * broadcastInDim ⟨2, ![A, B]⟩ ![0, 1] h s (ix2 a b) = Y (ix2 a b) * s (col0 a)
    rw [bcastCol_apply]

/-- The host's hyperbolic tangent is the entrywise one. -/
theorem hostTanh_eq (Y : FVec Ideal ⟨2, ![A, B]⟩ .f32) : Host.tanh Y = mapEntries Ideal.tanh Y := rfl

/-! ## A kernel's spelling -/

/-- A column [A, 1] broadcast (as a vector broadcast) to [A, B], read at (a, b): the column's entry (a, 0). -/
theorem bcastToCol_apply (h : (⟨2, ![A, 1]⟩ : Shape).Broadcasts ⟨2, ![A, B]⟩)
    (s : (⟨2, ![A, 1]⟩ : Shape).Idx → EReal) (a : Fin A) (b : Fin B) :
    broadcastTo ⟨2, ![A, B]⟩ s h (ix2 a b) = s (col0 a) := by
  refine broadcastTo_apply s h (ix2 a b) (col0 a) fun d => ?_
  match d with
  | ⟨0, _⟩ =>
    show a.val = if A = 1 then 0 else a.val
    split
    · have := a.isLt; omega
    · rfl
  | ⟨1, _⟩ => exact (if_pos rfl).symm

/-- A kernel's product with a column, cast to its own shape and broadcast along the rows, is `scaleRows`. -/
theorem kernelScale_eq (Y : FVec Ideal ⟨2, ![A, B]⟩ .f32) (s : FVec Ideal ⟨2, ![A, 1]⟩ .f32)
    (hc : (⟨2, ![A, 1]⟩ : Shape).ShapeCasts ⟨2, ![A, 1]⟩) (hb : (⟨2, ![A, 1]⟩ : Shape).Broadcasts ⟨2, ![A, B]⟩) :
    mulf Y (broadcastTo ⟨2, ![A, B]⟩ (shapeCast ⟨2, ![A, 1]⟩ s hc) hb) = scaleRows Y s :=
  funext fun i => by
    obtain ⟨a, b, rfl⟩ : ∃ (a : Fin A) (b : Fin B), i = ix2 a b := ⟨i 0, i 1, eq_ix2 i⟩
    show Y (ix2 a b) * broadcastTo ⟨2, ![A, B]⟩ (shapeCast ⟨2, ![A, 1]⟩ s hc) hb (ix2 a b) = Y (ix2 a b) * s (col0 a)
    rw [bcastToCol_apply, shapeCast_self]

/-- A kernel's matmul of a plain product into the zero accumulator (whatever record spells its dimension numbers, and
    whatever formats the operands were narrowed to) is `prod`. -/
theorem kernelProd_eq {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (X : FVec Ideal ⟨2, ![A, K]⟩ φ₁) (W : FVec Ideal ⟨2, ![K, B]⟩ φ₂) :
    matmul d none X W (constant ⟨2, ![A, B]⟩ .f32 0x00000000#32) = prod X W := by
  rw [Cert.Lib.PlainDot.eq_plain d h1 h2 h3 h4 h5 h6]
  exact funext fun i => Cert.Lib.PlainDot.matmul_zero_plain_apply none X W i

/-- A kernel's bias add (the vector cast to one row, the row broadcast down the rows) and maximum with a broadcast
    scalar is `act`. -/
theorem kernelAct_eq (Z : FVec Ideal ⟨2, ![A, K]⟩ .f32) (b : FVec Ideal ⟨1, ![K]⟩ .f32)
    (hc : (⟨1, ![K]⟩ : Shape).ShapeCasts ⟨2, ![1, K]⟩) (hb : (⟨2, ![1, K]⟩ : Shape).Broadcasts ⟨2, ![A, K]⟩) (z : EReal) :
    maximumf (addf Z (broadcastTo ⟨2, ![A, K]⟩ (shapeCast ⟨2, ![1, K]⟩ b hc) hb)) (broadcast ⟨2, ![A, K]⟩ z) = act Z b z :=
  funext fun i => by
    obtain ⟨a, k, rfl⟩ : ∃ (a : Fin A) (k : Fin K), i = ix2 a k := ⟨i 0, i 1, eq_ix2 i⟩
    show max (Z (ix2 a k) + broadcastTo ⟨2, ![A, K]⟩ (shapeCast ⟨2, ![1, K]⟩ b hc) hb (ix2 a k)) z
      = max (Z (ix2 a k) + b (ix1 k)) z
    rw [broadcastTo_1b_ab_apply, shapeCast_a_1a_apply]

/-- A kernel's bias add of a vector to every row is `addRow`. -/
theorem kernelAddRow_eq (Y : FVec Ideal ⟨2, ![A, B]⟩ .f32) (o : FVec Ideal ⟨1, ![B]⟩ .f32)
    (hc : (⟨1, ![B]⟩ : Shape).ShapeCasts ⟨2, ![1, B]⟩) (hb : (⟨2, ![1, B]⟩ : Shape).Broadcasts ⟨2, ![A, B]⟩) :
    addf Y (broadcastTo ⟨2, ![A, B]⟩ (shapeCast ⟨2, ![1, B]⟩ o hc) hb) = addRow Y o :=
  funext fun i => by
    obtain ⟨a, k, rfl⟩ : ∃ (a : Fin A) (k : Fin B), i = ix2 a k := ⟨i 0, i 1, eq_ix2 i⟩
    show Y (ix2 a k) + broadcastTo ⟨2, ![A, B]⟩ (shapeCast ⟨2, ![1, B]⟩ o hc) hb (ix2 a k) = Y (ix2 a k) + o (ix1 k)
    rw [broadcastTo_1b_ab_apply, shapeCast_a_1a_apply]

/-! ## Row-locality: the stage of a block of rows is that block of the stage -/

section Blocks
variable {a : Nat} (e : Fin a → Fin A)

/-- A block x : [a, C] holds the rows e(0), …, e(a−1) of X : [A, C]. -/
def RowsOf {C : Nat} (x : (⟨2, ![a, C]⟩ : Shape).Idx → EReal) (X : (⟨2, ![A, C]⟩ : Shape).Idx → EReal) : Prop :=
  ∀ (p : Fin a) (q : Fin C), x (ix2 p q) = X (ix2 (e p) q)

theorem rowsOf_prod {x : (⟨2, ![a, K]⟩ : Shape).Idx → EReal} {X : (⟨2, ![A, K]⟩ : Shape).Idx → EReal}
    (hx : RowsOf e x X) (W : (⟨2, ![K, B]⟩ : Shape).Idx → EReal) : RowsOf e (prod x W) (prod X W) :=
  fun p q => Finset.sum_congr rfl fun k _ => by
    show x (ix2 p k) * W (ix2 k q) = X (ix2 (e p) k) * W (ix2 k q)
    rw [hx p k]

theorem rowsOf_scaleRows {y : (⟨2, ![a, B]⟩ : Shape).Idx → EReal} {Y : (⟨2, ![A, B]⟩ : Shape).Idx → EReal}
    {s : (⟨2, ![a, 1]⟩ : Shape).Idx → EReal} {S : (⟨2, ![A, 1]⟩ : Shape).Idx → EReal}
    (hy : RowsOf e y Y) (hs : RowsOf e s S) : RowsOf e (scaleRows y s) (scaleRows Y S) :=
  fun p q => by
    show y (ix2 p q) * s (col0 p) = Y (ix2 (e p) q) * S (col0 (e p))
    rw [hy p q, hs p ⟨0, Nat.one_pos⟩]

theorem rowsOf_act {z' : (⟨2, ![a, K]⟩ : Shape).Idx → EReal} {Z : (⟨2, ![A, K]⟩ : Shape).Idx → EReal}
    (hz : RowsOf e z' Z) (b : (⟨1, ![K]⟩ : Shape).Idx → EReal) (z : EReal) : RowsOf e (act z' b z) (act Z b z) :=
  fun p q => by
    show max (z' (ix2 p q) + b (ix1 q)) z = max (Z (ix2 (e p) q) + b (ix1 q)) z
    rw [hz p q]

theorem rowsOf_addRow {y : (⟨2, ![a, B]⟩ : Shape).Idx → EReal} {Y : (⟨2, ![A, B]⟩ : Shape).Idx → EReal}
    (hy : RowsOf e y Y) (o : (⟨1, ![B]⟩ : Shape).Idx → EReal) : RowsOf e (addRow y o) (addRow Y o) :=
  fun p q => by
    show y (ix2 p q) + o (ix1 q) = Y (ix2 (e p) q) + o (ix1 q)
    rw [hy p q]

theorem rowsOf_mapEntries (f : EReal → EReal) {y : (⟨2, ![a, B]⟩ : Shape).Idx → EReal}
    {Y : (⟨2, ![A, B]⟩ : Shape).Idx → EReal} (hy : RowsOf e y Y) : RowsOf e (mapEntries f y) (mapEntries f Y) :=
  fun p q => congrArg f (hy p q)

end Blocks

end Cert.RowLocal

end
-- ==== Proof.RegionProject.lean ====
/-
  THE FIRST REGION: the node features times the first layer's weights, every node's row scaled by that node's
  source-side factor.

  The grid has ten points; point t stages rows 5000 t … 5000 t + 4999 of the features X : [50000, 128] and of the
  column of factors s : [50000, 1], and the whole weight matrix W : [128, 128]; the body stores, for its block, the
  product of the block with W (a matmul into the zero accumulator) with row p scaled by the block's p-th factor, and the
  pipeline writes that block back to rows 5000 t … of the output. The stage is row-local, so what point t writes back is
  block t of ONE whole-array function of X, W and s; the ten blocks tile the output, so the output array is that function.
-/
import proofs.«128032_j73830487818453_2_alg».proof.Proof.KernelIdealFrameP
import proofs.«128032_j73830487818453_2_alg».proof.Proof.LibRowLocal
import Idealize.ShloMosaic.Lib.Pipeline.Value

set_option maxRecDepth 16384

noncomputable section

namespace Cert.KernelIdeal.Project

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Layer Cert.RowLocal

variable (V : (c : Dev nD) → (b : Ref sig .tc) → Buf (Elt Ideal) ((c : Thread nD τ).loc b))

theorem hz : (![0, 0] : Fin 2 → Nat) = fun _ => 0 := funext fun a => by fin_cases a <;> rfl

/-- The whole-array function: (X · W) with row r scaled by s(r, 0). -/
abbrev G (X : S50000x128.Idx → EReal) (W : S128x128.Idx → EReal) (s : S50000x1.Idx → EReal) : S50000x128.Idx → EReal :=
  scaleRows (prod X W) s

/-- The body's stored value, of its three loaded blocks: the same function of the blocks. -/
theorem pay_eq (x0 : Vec Ideal S5000x128 .f32) (x1 : Vec Ideal S128x128 .f32) (x2 : Vec Ideal S5000x1 .f32) :
    k0_pay1 x0 x1 x2 = scaleRows (prod x0 x1) x2 := by
  unfold k0_pay1
  refine (kernelScale_eq _ x2 _ _).trans ?_
  rw [kernelProd_eq _ rfl rfl rfl rfl rfl rfl]
  rfl

/-- Row p of point t's blocks is row 5000 t + p of the arrays. -/
def rowOf (t : Fin cfg0.N) (p : Fin 5000) : Fin 50000 :=
  ⟨t.val * 5000 + p.val, by have h : t.val < 10 := lt_of_lt_of_eq t.isLt N_0; omega⟩

/-- The printed index maps over the grid: the three row-blocked windows sit at block row t, the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point t holds rows 5000 t … of the features. -/
theorem rows_x (c : Dev nD) (t : Fin cfg0.N) : RowsOf (rowOf t) (iblk0 V c 0 t) (V c main_arg0) := fun p q => by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 5000 + 1 * p.val = t.val * 5000 + p.val; rw [e0]; omega
  | ⟨1, _⟩ => show win0_0.index t 1 * 128 + 1 * q.val = q.val; rw [e1]; omega

/-- The factors' block at point t holds rows 5000 t … of the column of factors. -/
theorem rows_s (c : Dev nD) (t : Fin cfg0.N) : RowsOf (rowOf t) (iblk0 V c 2 t) (V c main_v11) := fun p q => by
  obtain ⟨-, -, -, -, e4, e5, -⟩ := idx_facts t
  unfold iblk0
  rw [View.read_apply]
  show V c main_v11 _ = V c main_v11 _
  congr 1
  funext a
  apply Fin.ext
  match a with
  | ⟨0, _⟩ => show win0_2.index t 0 * 5000 + 1 * p.val = t.val * 5000 + p.val; rw [e4]; omega
  | ⟨1, _⟩ => show win0_2.index t 1 * 1 + 1 * q.val = q.val; rw [e5]; omega

/-- The weights' block is the whole weight matrix at every point. -/
theorem whole_w (c : Dev nD) (t : Fin cfg0.N) : iblk0 V c 1 t = V c main_arg1 := funext fun y => by
  obtain ⟨-, -, e2, e3, -⟩ := idx_facts t
  unfold iblk0
  rw [View.read_apply]
  show V c main_arg1 _ = V c main_arg1 _
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- WHAT POINT t WRITES BACK is block t of `G` of the arrays as the region finds them. -/
theorem flushed_eq (c : Dev nD) (t : Fin cfg0.N) :
    (dat0 V c).flushed 3 t = ((cfg0.win 3).blk t).view.read (Elt Ideal) (G (V c main_arg0) (V c main_arg1) (V c main_v11)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  rw [pay_eq, whole_w]
  obtain ⟨-, -, -, -, -, -, e6, e7⟩ := idx_facts t
  funext j
  have hj : ((cfg0.win 3).blk t).view.emb j = ix2 (rowOf t (j 0)) (j 1) := by
    funext a
    apply Fin.ext
    match a with
    | ⟨0, _⟩ => show win0_3.index t 0 * 5000 + 1 * (j 0).val = t.val * 5000 + (j 0).val; rw [e6]; omega
    | ⟨1, _⟩ => show win0_3.index t 1 * 128 + 1 * (j 1).val = (j 1).val; rw [e7]; omega
  show scaleRows (prod (iblk0 V c 0 t) (V c main_arg1)) (iblk0 V c 2 t) j = G (V c main_arg0) (V c main_arg1) (V c main_v11) (((cfg0.win 3).blk t).view.emb j)
  rw [hj, eq_ix2 j]
  exact rowsOf_scaleRows (rowOf t) (rowsOf_prod (rowOf t) (rows_x V c t) _) (rows_s V c t) (j 0) (j 1)

/-- An index of the output is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v17).slice (win0_3.rect t)).set ↔ _
  rw [View.set_slice_whole, Rect.mem_set_unit]
  exact Iff.rfl

/-- Row r of the output lies in the block of point r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, lt_of_lt_of_eq (show (i 0).val / 5000 < 10 by omega) N_0.symm⟩
  obtain ⟨-, -, -, -, -, -, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

/-- THE OUTPUT ARRAY after the region is `G` of the arrays as the region finds them. -/
theorem final (c : Dev nD) :
    (dat0 V c).arrAt 3 cfg0.N = G (V c main_arg0) (V c main_arg1) (V c main_v11) :=
  (dat0 V c).arrAt_eq_of_cover 3 _ (fun t _ => flushed_eq V c t) cover

end Cert.KernelIdeal.Project

end
-- ==== Proof.RegionFused.lean ====
/-
  THE SECOND REGION: the first layer's activation and the second layer's projection in one pass.

  Point t of ten stages rows 5000 t … 5000 t + 4999 of the aggregated messages A : [50000, 128], of the target-side factors
  d : [50000, 1] and of the source-side factors s : [50000, 1], and the whole bias b : [128] and weights W : [128, 128]. Its
  body scales row p of the block by d(p), adds b to every row, takes the maximum with zero, multiplies by W (a matmul into
  the zero accumulator) and scales row p by s(p). Every step acts row by row, so what point t writes back is block t of ONE
  whole-array function of A, d, b, W and s, and the ten blocks tile the output.
-/
import proofs.«128032_j73830487818453_2_alg».proof.Proof.KernelIdealFrameP
import proofs.«128032_j73830487818453_2_alg».proof.Proof.LibRowLocal
import Idealize.ShloMosaic.Lib.Pipeline.Value

set_option maxRecDepth 16384

noncomputable section

namespace Cert.KernelIdeal.Fused

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Layer Cert.RowLocal

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The zero the body takes the maximum with. -/
abbrev z0 : EReal := Scalar.ofBits (F := Ideal) .f32 0x00000000#32

/-- The whole-array function: max(A scaled by d, plus b, 0) · W, scaled by s. -/
abbrev G (A : S50000x128.Idx → EReal) (d : S50000x1.Idx → EReal) (b : S128.Idx → EReal) (W : S128x128.Idx → EReal)
    (s : S50000x1.Idx → EReal) : S50000x128.Idx → EReal :=
  scaleRows (prod (act (scaleRows A d) b z0) W) s

/-- The body's stored value, of its five loaded blocks: the same function of the blocks. -/
theorem pay_eq (x0 : Vec Ideal S5000x128 .f32) (x1 : Vec Ideal S5000x1 .f32) (x2 : Vec Ideal S128 .f32) (x3 : Vec Ideal S128x128 .f32)
    (x4 : Vec Ideal S5000x1 .f32) :
    k1_pay1 x0 x1 x2 x3 x4 = scaleRows (prod (act (scaleRows x0 x1) x2 z0) x3) x4 := by
  unfold k1_pay1
  refine (kernelScale_eq _ x4 _ _).trans ?_
  rw [kernelProd_eq _ rfl rfl rfl rfl rfl rfl, kernelAct_eq, kernelScale_eq, shapeCast_self]
  rfl

/-- Row p of point t's blocks is row 5000 t + p of the arrays. -/
def rowOf (t : Fin cfg1.N) (p : Fin 5000) : Fin 50000 :=
  ⟨t.val * 5000 + p.val, by have h : t.val < 10 := lt_of_lt_of_eq t.isLt N_1; omega⟩

/-! The printed index maps over the grid: a row-blocked window sits at block row t, a window that is not cut at block 0. -/
theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = t.val ∧ win1_1.index t (1 : Fin 2) = 0 :=
  (by decide +kernel : ∀ t : Fin grid1.N, _)
theorem idx2 : ∀ t : Fin cfg1.N, win1_2.index t (0 : Fin 1) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = t.val ∧ win1_4.index t (1 : Fin 2) = 0 :=
  (by decide +kernel : ∀ t : Fin grid1.N, _)
theorem idx5 : ∀ t : Fin cfg1.N, win1_5.index t (0 : Fin 2) = t.val ∧ win1_5.index t (1 : Fin 2) = 0 :=
  (by decide +kernel : ∀ t : Fin grid1.N, _)

/-- The aggregate's block at point t holds rows 5000 t … of the aggregate. -/
theorem rows_agg (c : Dev nD) (t : Fin cfg1.N) : RowsOf (rowOf t) (iblk1 V c 0 t) (V c main_v28) := fun p q => by
  obtain ⟨e0, e1⟩ := idx0 t
  unfold iblk1
  rw [View.read_apply]
  show V c main_v28 _ = V c main_v28 _
  congr 1
  funext a
  apply Fin.ext
  match a with
  | ⟨0, _⟩ => show win1_0.index t 0 * 5000 + 1 * p.val = t.val * 5000 + p.val; rw [e0]; omega
  | ⟨1, _⟩ => show win1_0.index t 1 * 128 + 1 * q.val = q.val; rw [e1]; omega

/-- The target-side factors' block at point t holds rows 5000 t … of that column. -/
theorem rows_d (c : Dev nD) (t : Fin cfg1.N) : RowsOf (rowOf t) (iblk1 V c 1 t) (V c main_v16) := fun p q => by
  obtain ⟨e0, e1⟩ := idx1 t
  unfold iblk1
  rw [View.read_apply]
  show V c main_v16 _ = V c main_v16 _
  congr 1
  funext a
  apply Fin.ext
  match a with
  | ⟨0, _⟩ => show win1_1.index t 0 * 5000 + 1 * p.val = t.val * 5000 + p.val; rw [e0]; omega
  | ⟨1, _⟩ => show win1_1.index t 1 * 1 + 1 * q.val = q.val; rw [e1]; omega

/-- The bias is staged whole at every point. -/
theorem whole_b (c : Dev nD) (t : Fin cfg1.N) : iblk1 V c 2 t = V c main_arg2 := funext fun y => by
  have e0 := idx2 t
  unfold iblk1
  rw [View.read_apply]
  show V c main_arg2 _ = V c main_arg2 _
  congr 1
  funext a
  apply Fin.ext
  match a with
  | ⟨0, _⟩ => show win1_2.index t 0 * 128 + 1 * (y 0).val = (y 0).val; rw [e0]; omega

/-- The weights are staged whole at every point. -/
theorem whole_w (c : Dev nD) (t : Fin cfg1.N) : iblk1 V c 3 t = V c main_arg3 := funext fun y => by
  obtain ⟨e0, e1⟩ := idx3 t
  unfold iblk1
  rw [View.read_apply]
  show V c main_arg3 _ = V c main_arg3 _
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- The source-side factors' block at point t holds rows 5000 t … of that column. -/
theorem rows_s (c : Dev nD) (t : Fin cfg1.N) : RowsOf (rowOf t) (iblk1 V c 4 t) (V c main_v11) := fun p q => by
  obtain ⟨e0, e1⟩ := idx4 t
  unfold iblk1
  rw [View.read_apply]
  show V c main_v11 _ = V c main_v11 _
  congr 1
  funext a
  apply Fin.ext
  match a with
  | ⟨0, _⟩ => show win1_4.index t 0 * 5000 + 1 * p.val = t.val * 5000 + p.val; rw [e0]; omega
  | ⟨1, _⟩ => show win1_4.index t 1 * 1 + 1 * q.val = q.val; rw [e1]; omega

/-- WHAT POINT t WRITES BACK is block t of `G` of the arrays as the region finds them. -/
theorem flushed_eq (c : Dev nD) (t : Fin cfg1.N) :
    (dat1 V c).flushed 5 t = ((cfg1.win 5).blk t).view.read (Elt Ideal) (G (V c main_v28) (V c main_v16) (V c main_arg2) (V c main_arg3) (V c main_v11)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S128) hz1, View.ld_unit_zero (S := S128x128) hz]
  rw [pay_eq, whole_b, whole_w]
  obtain ⟨e0, e1⟩ := idx5 t
  funext j
  have hj : ((cfg1.win 5).blk t).view.emb j = ix2 (rowOf t (j 0)) (j 1) := by
    funext a
    apply Fin.ext
    match a with
    | ⟨0, _⟩ => show win1_5.index t 0 * 5000 + 1 * (j 0).val = t.val * 5000 + (j 0).val; rw [e0]; omega
    | ⟨1, _⟩ => show win1_5.index t 1 * 128 + 1 * (j 1).val = (j 1).val; rw [e1]; omega
  show (scaleRows (prod (act (scaleRows (iblk1 V c 0 t) (iblk1 V c 1 t)) (V c main_arg2) z0) (V c main_arg3)) (iblk1 V c 4 t)) j = (G (V c main_v28) (V c main_v16) (V c main_arg2) (V c main_arg3) (V c main_v11)) (((cfg1.win 5).blk t).view.emb j)
  rw [hj, eq_ix2 j]
  exact rowsOf_scaleRows (rowOf t) (rowsOf_prod (rowOf t) (rowsOf_act (rowOf t) (rowsOf_scaleRows (rowOf t) (rows_agg V c t) (rows_d V c t)) _ _) _) (rows_s V c t) (j 0) (j 1)

/-- An index of the output is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v29).slice (win1_5.rect t)).set ↔ _
  rw [View.set_slice_whole, Rect.mem_set_unit]
  exact Iff.rfl

/-- Row r of the output lies in the block of point r / 5000. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, lt_of_lt_of_eq (show (i 0).val / 5000 < 10 by omega) N_1.symm⟩
  obtain ⟨e0, e1⟩ := idx5 t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- THE OUTPUT ARRAY after the region is `G` of the arrays as the region finds them. -/
theorem final (c : Dev nD) :
    (dat1 V c).arrAt 5 cfg1.N = G (V c main_v28) (V c main_v16) (V c main_arg2) (V c main_arg3) (V c main_v11) :=
  (dat1 V c).arrAt_eq_of_cover 5 _ (fun t _ => flushed_eq V c t) cover

end Cert.KernelIdeal.Fused

end
-- ==== Proof.RegionActivate.lean ====
/-
  THE THIRD REGION: the second layer's activation, which is the encoder's node output.

  Point t of ten stages rows 5000 t … 5000 t + 4999 of the aggregated messages A : [50000, 128] and of the target-side
  factors d : [50000, 1], and the whole bias b : [128]. Its body scales row p of the block by d(p), adds b to every row and
  takes the maximum with zero. Every step acts row by row, so what point t writes back is block t of ONE whole-array
  function of A, d and b, and the ten blocks tile the output.
-/
import proofs.«128032_j73830487818453_2_alg».proof.Proof.KernelIdealFrameP
import proofs.«128032_j73830487818453_2_alg».proof.Proof.LibRowLocal
import Idealize.ShloMosaic.Lib.Pipeline.Value

set_option maxRecDepth 16384

noncomputable section

namespace Cert.KernelIdeal.Activate

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Layer Cert.RowLocal

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The zero the body takes the maximum with. -/
abbrev z0 : EReal := Scalar.ofBits (F := Ideal) .f32 0x00000000#32

/-- The whole-array function: max(A scaled by d, plus b, 0). -/
abbrev G (A : S50000x128.Idx → EReal) (d : S50000x1.Idx → EReal) (b : S128.Idx → EReal) : S50000x128.Idx → EReal :=
  act (scaleRows A d) b z0

/-- The body's stored value, of its three loaded blocks: the same function of the blocks. -/
theorem pay_eq (x0 : Vec Ideal S5000x128 .f32) (x1 : Vec Ideal S5000x1 .f32) (x2 : Vec Ideal S128 .f32) :
    k2_pay1 x0 x1 x2 = act (scaleRows x0 x1) x2 z0 := by
  unfold k2_pay1
  refine (kernelAct_eq _ x2 _ _ _).trans ?_
  rw [kernelScale_eq, shapeCast_self]

/-- Row p of point t's blocks is row 5000 t + p of the arrays. -/
def rowOf (t : Fin cfg2.N) (p : Fin 5000) : Fin 50000 :=
  ⟨t.val * 5000 + p.val, by have h : t.val < 10 := lt_of_lt_of_eq t.isLt N_2; omega⟩

/-! The printed index maps over the grid: a row-blocked window sits at block row t, a window that is not cut at block 0. -/
theorem idx0 : ∀ t : Fin cfg2.N, win2_0.index t (0 : Fin 2) = t.val ∧ win2_0.index t (1 : Fin 2) = 0 :=
  (by decide +kernel : ∀ t : Fin grid2.N, _)
theorem idx1 : ∀ t : Fin cfg2.N, win2_1.index t (0 : Fin 2) = t.val ∧ win2_1.index t (1 : Fin 2) = 0 :=
  (by decide +kernel : ∀ t : Fin grid2.N, _)
theorem idx2 : ∀ t : Fin cfg2.N, win2_2.index t (0 : Fin 1) = 0 :=
  (by decide +kernel : ∀ t : Fin grid2.N, _)
theorem idx3 : ∀ t : Fin cfg2.N, win2_3.index t (0 : Fin 2) = t.val ∧ win2_3.index t (1 : Fin 2) = 0 :=
  (by decide +kernel : ∀ t : Fin grid2.N, _)

/-- The aggregate's block at point t holds rows 5000 t … of the aggregate. -/
theorem rows_agg (c : Dev nD) (t : Fin cfg2.N) : RowsOf (rowOf t) (iblk2 V c 0 t) (V c main_v40) := fun p q => by
  obtain ⟨e0, e1⟩ := idx0 t
  unfold iblk2
  rw [View.read_apply]
  show V c main_v40 _ = V c main_v40 _
  congr 1
  funext a
  apply Fin.ext
  match a with
  | ⟨0, _⟩ => show win2_0.index t 0 * 5000 + 1 * p.val = t.val * 5000 + p.val; rw [e0]; omega
  | ⟨1, _⟩ => show win2_0.index t 1 * 128 + 1 * q.val = q.val; rw [e1]; omega

/-- The target-side factors' block at point t holds rows 5000 t … of that column. -/
theorem rows_d (c : Dev nD) (t : Fin cfg2.N) : RowsOf (rowOf t) (iblk2 V c 1 t) (V c main_v16) := fun p q => by
  obtain ⟨e0, e1⟩ := idx1 t
  unfold iblk2
  rw [View.read_apply]
  show V c main_v16 _ = V c main_v16 _
  congr 1
  funext a
  apply Fin.ext
  match a with
  | ⟨0, _⟩ => show win2_1.index t 0 * 5000 + 1 * p.val = t.val * 5000 + p.val; rw [e0]; omega
  | ⟨1, _⟩ => show win2_1.index t 1 * 1 + 1 * q.val = q.val; rw [e1]; omega

/-- The bias is staged whole at every point. -/
theorem whole_b (c : Dev nD) (t : Fin cfg2.N) : iblk2 V c 2 t = V c main_arg4 := funext fun y => by
  have e0 := idx2 t
  unfold iblk2
  rw [View.read_apply]
  show V c main_arg4 _ = V c main_arg4 _
  congr 1
  funext a
  apply Fin.ext
  match a with
  | ⟨0, _⟩ => show win2_2.index t 0 * 128 + 1 * (y 0).val = (y 0).val; rw [e0]; omega

/-- WHAT POINT t WRITES BACK is block t of `G` of the arrays as the region finds them. -/
theorem flushed_eq (c : Dev nD) (t : Fin cfg2.N) :
    (dat2 V c).flushed 3 t = ((cfg2.win 3).blk t).view.read (Elt Ideal) (G (V c main_v40) (V c main_v16) (V c main_arg4)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S128) hz1]
  rw [pay_eq, whole_b]
  obtain ⟨e0, e1⟩ := idx3 t
  funext j
  have hj : ((cfg2.win 3).blk t).view.emb j = ix2 (rowOf t (j 0)) (j 1) := by
    funext a
    apply Fin.ext
    match a with
    | ⟨0, _⟩ => show win2_3.index t 0 * 5000 + 1 * (j 0).val = t.val * 5000 + (j 0).val; rw [e0]; omega
    | ⟨1, _⟩ => show win2_3.index t 1 * 128 + 1 * (j 1).val = (j 1).val; rw [e1]; omega
  show (act (scaleRows (iblk2 V c 0 t) (iblk2 V c 1 t)) (V c main_arg4) z0) j = (G (V c main_v40) (V c main_v16) (V c main_arg4)) (((cfg2.win 3).blk t).view.emb j)
  rw [hj, eq_ix2 j]
  exact rowsOf_act (rowOf t) (rowsOf_scaleRows (rowOf t) (rows_agg V c t) (rows_d V c t)) _ _ (j 0) (j 1)

/-- An index of the output is in point t's block iff each coordinate is in the block's range on its axis. -/
theorem mem_blk (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v41).slice (win2_3.rect t)).set ↔ _
  rw [View.set_slice_whole, Rect.mem_set_unit]
  exact Iff.rfl

/-- Row r of the output lies in the block of point r / 5000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  let t : Fin cfg2.N := ⟨(i 0).val / 5000, lt_of_lt_of_eq (show (i 0).val / 5000 < 10 by omega) N_2.symm⟩
  obtain ⟨e0, e1⟩ := idx3 t
  have ht : t.val = (i 0).val / 5000 := rfl
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 128 ≤ (i 1).val ∧ (i 1).val < win2_3.index t (1 : Fin 2) * 128 + 128; rw [e1]; omega

/-- THE OUTPUT ARRAY after the region is `G` of the arrays as the region finds them. -/
theorem final (c : Dev nD) :
    (dat2 V c).arrAt 3 cfg2.N = G (V c main_v40) (V c main_v16) (V c main_arg4) :=
  (dat2 V c).arrAt_eq_of_cover 3 _ (fun t _ => flushed_eq V c t) cover

end Cert.KernelIdeal.Activate

end
-- ==== Proof.RegionHead.lean ====
/-
  THE FOURTH REGION: the two-layer head on the gathered user rows.

  Point t of two stages rows 5000 t … 5000 t + 4999 of the gathered rows U : [10000, 128] and, whole, the two weight
  matrices W₁ : [128, 64], W₂ : [64, 64] and the two biases b₁, b₂ : [64]. Its body multiplies the block by W₁ (a matmul into
  the zero accumulator), adds b₁ to every row, takes the hyperbolic tangent entry by entry, multiplies by W₂ and adds b₂ to
  every row. Every step acts row by row, so what point t writes back is block t of ONE whole-array function of U, W₁, b₁,
  W₂ and b₂, and the two blocks tile the output.
-/
import proofs.«128032_j73830487818453_2_alg».proof.Proof.KernelIdealFrameP
import proofs.«128032_j73830487818453_2_alg».proof.Proof.LibRowLocal
import Idealize.ShloMosaic.Lib.Pipeline.Value

set_option maxRecDepth 16384

noncomputable section

namespace Cert.KernelIdeal.Head

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Layer Cert.RowLocal

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The whole-array function: tanh(U · W₁ + b₁) · W₂ + b₂. -/
abbrev G (U : S10000x128.Idx → EReal) (W1 : S128x64.Idx → EReal) (b1 : S64.Idx → EReal) (W2 : S64x64.Idx → EReal)
    (b2 : S64.Idx → EReal) : S10000x64.Idx → EReal :=
  addRow (prod (mapEntries Ideal.tanh (addRow (prod U W1) b1)) W2) b2

/-- The body's stored value, of its five loaded blocks: the same function of the blocks. -/
theorem pay_eq (x0 : Vec Ideal S5000x128 .f32) (x1 : Vec Ideal S128x64 .f32) (x2 : Vec Ideal S64 .f32) (x3 : Vec Ideal S64x64 .f32)
    (x4 : Vec Ideal S64 .f32) :
    k3_pay1 x0 x1 x2 x3 x4 = addRow (prod (mapEntries Ideal.tanh (addRow (prod x0 x1) x2)) x3) x4 := by
  unfold k3_pay1
  refine (kernelAddRow_eq _ x4 _ _).trans ?_
  rw [kernelProd_eq _ rfl rfl rfl rfl rfl rfl, kernelProd_eq _ rfl rfl rfl rfl rfl rfl, kernelAddRow_eq, shapeCast_self]
  rfl

/-- Row p of point t's blocks is row 5000 t + p of the arrays. -/
def rowOf (t : Fin cfg3.N) (p : Fin 5000) : Fin 10000 :=
  ⟨t.val * 5000 + p.val, by have h : t.val < 2 := lt_of_lt_of_eq t.isLt N_3; omega⟩

/-! The printed index maps over the grid: a row-blocked window sits at block row t, a window that is not cut at block 0. -/
theorem idx0 : ∀ t : Fin cfg3.N, win3_0.index t (0 : Fin 2) = t.val ∧ win3_0.index t (1 : Fin 2) = 0 :=
  (by decide +kernel : ∀ t : Fin grid3.N, _)
theorem idx1 : ∀ t : Fin cfg3.N, win3_1.index t (0 : Fin 2) = 0 ∧ win3_1.index t (1 : Fin 2) = 0 :=
  (by decide +kernel : ∀ t : Fin grid3.N, _)
theorem idx2 : ∀ t : Fin cfg3.N, win3_2.index t (0 : Fin 1) = 0 :=
  (by decide +kernel : ∀ t : Fin grid3.N, _)
theorem idx3 : ∀ t : Fin cfg3.N, win3_3.index t (0 : Fin 2) = 0 ∧ win3_3.index t (1 : Fin 2) = 0 :=
  (by decide +kernel : ∀ t : Fin grid3.N, _)
theorem idx4 : ∀ t : Fin cfg3.N, win3_4.index t (0 : Fin 1) = 0 :=
  (by decide +kernel : ∀ t : Fin grid3.N, _)
theorem idx5 : ∀ t : Fin cfg3.N, win3_5.index t (0 : Fin 2) = t.val ∧ win3_5.index t (1 : Fin 2) = 0 :=
  (by decide +kernel : ∀ t : Fin grid3.N, _)

/-- The gathered rows' block at point t holds rows 5000 t … of the gathered rows. -/
theorem rows_u (c : Dev nD) (t : Fin cfg3.N) : RowsOf (rowOf t) (iblk3 V c 0 t) (V c main_v48) := fun p q => by
  obtain ⟨e0, e1⟩ := idx0 t
  unfold iblk3
  rw [View.read_apply]
  show V c main_v48 _ = V c main_v48 _
  congr 1
  funext a
  apply Fin.ext
  match a with
  | ⟨0, _⟩ => show win3_0.index t 0 * 5000 + 1 * p.val = t.val * 5000 + p.val; rw [e0]; omega
  | ⟨1, _⟩ => show win3_0.index t 1 * 128 + 1 * q.val = q.val; rw [e1]; omega

/-- The first weight matrix is staged whole at every point. -/
theorem whole_w1 (c : Dev nD) (t : Fin cfg3.N) : iblk3 V c 1 t = V c main_arg5 := funext fun y => by
  obtain ⟨e0, e1⟩ := idx1 t
  unfold iblk3
  rw [View.read_apply]
  show V c main_arg5 _ = V c main_arg5 _
  congr 1
  funext a
  apply Fin.ext
  match a with
  | ⟨0, _⟩ => show win3_1.index t 0 * 128 + 1 * (y 0).val = (y 0).val; rw [e0]; omega
  | ⟨1, _⟩ => show win3_1.index t 1 * 64 + 1 * (y 1).val = (y 1).val; rw [e1]; omega

/-- The first bias is staged whole at every point. -/
theorem whole_b1 (c : Dev nD) (t : Fin cfg3.N) : iblk3 V c 2 t = V c main_arg6 := funext fun y => by
  have e0 := idx2 t
  unfold iblk3
  rw [View.read_apply]
  show V c main_arg6 _ = V c main_arg6 _
  congr 1
  funext a
  apply Fin.ext
  match a with
  | ⟨0, _⟩ => show win3_2.index t 0 * 64 + 1 * (y 0).val = (y 0).val; rw [e0]; omega

/-- The second weight matrix is staged whole at every point. -/
theorem whole_w2 (c : Dev nD) (t : Fin cfg3.N) : iblk3 V c 3 t = V c main_arg7 := funext fun y => by
  obtain ⟨e0, e1⟩ := idx3 t
  unfold iblk3
  rw [View.read_apply]
  show V c main_arg7 _ = V c main_arg7 _
  congr 1
  funext a
  apply Fin.ext
  match a with
  | ⟨0, _⟩ => show win3_3.index t 0 * 64 + 1 * (y 0).val = (y 0).val; rw [e0]; omega
  | ⟨1, _⟩ => show win3_3.index t 1 * 64 + 1 * (y 1).val = (y 1).val; rw [e1]; omega

/-- The second bias is staged whole at every point. -/
theorem whole_b2 (c : Dev nD) (t : Fin cfg3.N) : iblk3 V c 4 t = V c main_arg8 := funext fun y => by
  have e0 := idx4 t
  unfold iblk3
  rw [View.read_apply]
  show V c main_arg8 _ = V c main_arg8 _
  congr 1
  funext a
  apply Fin.ext
  match a with
  | ⟨0, _⟩ => show win3_4.index t 0 * 64 + 1 * (y 0).val = (y 0).val; rw [e0]; omega

/-- WHAT POINT t WRITES BACK is block t of `G` of the arrays as the region finds them. -/
theorem flushed_eq (c : Dev nD) (t : Fin cfg3.N) :
    (dat3 V c).flushed 5 t = ((cfg3.win 5).blk t).view.read (Elt Ideal) (G (V c main_v48) (V c main_arg5) (V c main_arg6) (V c main_arg7) (V c main_arg8)) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x64) hz, View.ld_unit_zero (S := S64) hz1, View.ld_unit_zero (S := S64x64) hz]
  rw [pay_eq, whole_w1, whole_b1, whole_w2, whole_b2]
  obtain ⟨e0, e1⟩ := idx5 t
  funext j
  have hj : ((cfg3.win 5).blk t).view.emb j = ix2 (rowOf t (j 0)) (j 1) := by
    funext a
    apply Fin.ext
    match a with
    | ⟨0, _⟩ => show win3_5.index t 0 * 5000 + 1 * (j 0).val = t.val * 5000 + (j 0).val; rw [e0]; omega
    | ⟨1, _⟩ => show win3_5.index t 1 * 64 + 1 * (j 1).val = (j 1).val; rw [e1]; omega
  show (addRow (prod (mapEntries Ideal.tanh (addRow (prod (iblk3 V c 0 t) (V c main_arg5)) (V c main_arg6))) (V c main_arg7)) (V c main_arg8)) j = (G (V c main_v48) (V c main_arg5) (V c main_arg6) (V c main_arg7) (V c main_arg8)) (((cfg3.win 5).blk t).view.emb j)
  rw [hj, eq_ix2 j]
  exact rowsOf_addRow (rowOf t) (rowsOf_prod (rowOf t) (rowsOf_mapEntries (rowOf t) Ideal.tanh (rowsOf_addRow (rowOf t) (rowsOf_prod (rowOf t) (rows_u V c t) _) _)) _) _ (j 0) (j 1)

/-- An index of the output is in point t's block iff each coordinate is in the block's range on its axis. -/
theorem mem_blk (t : Fin cfg3.N) (i : S10000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v49).slice (win3_5.rect t)).set ↔ _
  rw [View.set_slice_whole, Rect.mem_set_unit]
  exact Iff.rfl

/-- Row r of the output lies in the block of point r / 5000. -/
theorem cover (i : S10000x64.Idx) : ∃ t : Fin cfg3.N, (cfg3.win 5).flush t = true ∧ i ∈ ((cfg3.win 5).blk t).view.set := by
  have hi0 : (i 0).val < 10000 := (i 0).isLt
  have hi1 : (i 1).val < 64 := (i 1).isLt
  let t : Fin cfg3.N := ⟨(i 0).val / 5000, lt_of_lt_of_eq (show (i 0).val / 5000 < 2 by omega) N_3.symm⟩
  obtain ⟨e0, e1⟩ := idx5 t
  have ht : t.val = (i 0).val / 5000 := rfl
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; rw [e0, ht]; omega
  | ⟨1, _⟩ => show win3_5.index t (1 : Fin 2) * 64 ≤ (i 1).val ∧ (i 1).val < win3_5.index t (1 : Fin 2) * 64 + 64; rw [e1]; omega

/-- THE OUTPUT ARRAY after the region is `G` of the arrays as the region finds them. -/
theorem final (c : Dev nD) :
    (dat3 V c).arrAt 5 cfg3.N = G (V c main_v48) (V c main_arg5) (V c main_arg6) (V c main_arg7) (V c main_arg8) :=
  (dat3 V c).arrAt_eq_of_cover 5 _ (fun t _ => flushed_eq V c t) cover

end Cert.KernelIdeal.Head

end
-- ==== Proof.KernelValue.lean ====
/-
  THE IDEALIZED KERNEL'S TWO RESULTS, as functions of the argument arrays.

  Each region's output array is one whole-array function of the arrays the region finds (the four region files); each
  array a region finds is an argument, a column of degree factors, or what a host stretch computed from an earlier
  region's output (the fold file). Composed: with s and d the source- and target-side degree factors and M one round of
  message passing (every edge takes its source's row; rows are added at the targets),

      H₀ = (X · W₀) scaled by s,      H₁ = max(M H₀ scaled by d, + b₀, 0) · W₁ scaled by s,
      h  = max(M H₁ scaled by d, + b₁, 0),      R = tanh(h[users] · Ws₁ + bs₁) · Ws₂ + bs₂,

  and the run ends with the head's output buffer at R and the node output buffer at h.
-/
import proofs.«128032_j73830487818453_2_alg».proof.Proof.KernelRun
import proofs.«128032_j73830487818453_2_alg».proof.Proof.KernelFold
import proofs.«128032_j73830487818453_2_alg».proof.Proof.RegionProject
import proofs.«128032_j73830487818453_2_alg».proof.Proof.RegionFused
import proofs.«128032_j73830487818453_2_alg».proof.Proof.RegionActivate
import proofs.«128032_j73830487818453_2_alg».proof.Proof.RegionHead

set_option maxRecDepth 16384

noncomputable section

namespace Cert.KernelIdeal.Value

open Cert.KernelIdeal Cert.KernelIdeal.Gen Cert.KernelIdeal.GenP Cert.KernelIdeal.Fold
open Idealize.ShloMosaic Idealize.ShloMosaic.TcCoe Idealize.SL.Sem
open Idealize.ShloMosaic.Pipeline (Dat)

/-- The node output h of the features, the two layers' weights and biases, and the edge list. -/
def nodesOf (X : (⟨S50000x128, .f32⟩ : BufTy).Contents (Elt Ideal)) (W0 : (⟨S128x128, .f32⟩ : BufTy).Contents (Elt Ideal))
    (b0 : (⟨S128, .f32⟩ : BufTy).Contents (Elt Ideal)) (W1 : (⟨S128x128, .f32⟩ : BufTy).Contents (Elt Ideal))
    (b1 : (⟨S128, .f32⟩ : BufTy).Contents (Elt Ideal)) (src dst : (⟨S1600000, .i32⟩ : BufTy).Contents (Elt Ideal)) :
    (⟨S50000x128, .f32⟩ : BufTy).Contents (Elt Ideal) :=
  Activate.G (msg (Fused.G (msg (Project.G X W0 (norm src)) src dst) (norm dst) b0 W1 (norm src)) src dst) (norm dst) b1

/-- The head's output R of the node output, the users and the head's weights and biases. -/
def headOf (h : (⟨S50000x128, .f32⟩ : BufTy).Contents (Elt Ideal)) (users : (⟨S10000, .i32⟩ : BufTy).Contents (Elt Ideal))
    (Ws1 : (⟨S128x64, .f32⟩ : BufTy).Contents (Elt Ideal)) (bs1 : (⟨S64, .f32⟩ : BufTy).Contents (Elt Ideal))
    (Ws2 : (⟨S64x64, .f32⟩ : BufTy).Contents (Elt Ideal)) (bs2 : (⟨S64, .f32⟩ : BufTy).Contents (Elt Ideal)) :
    (⟨S10000x64, .f32⟩ : BufTy).Contents (Elt Ideal) :=
  Head.G (pick h users) Ws1 bs1 Ws2 bs2

variable (m : (ℓ : Loc nD τ sig) → Buf (Elt Ideal) ℓ) (ρ : Dev nD → PrngReg)

/-- The first region's output: H₀. -/
theorem out0 (c : Dev nD) : (dat0 (V1 m ρ) c).arrAt 3 cfg0.N
    = Project.G (m ((c : Thread nD τ).loc main_arg0)) (m ((c : Thread nD τ).loc main_arg1)) (norm (m ((c : Thread nD τ).loc main_arg9))) := by
  rw [Project.final]
  show Project.G (W1 m ρ c (Proc.devRef .tc main_arg0)) (W1 m ρ c (Proc.devRef .tc main_arg1)) (W1 m ρ c (Proc.devRef .tc main_v11)) = _
  rw [W1_x, W1_w0, W1_s]

/-- The second region's output: H₁. -/
theorem out1 (c : Dev nD) : (dat1 (V3 m ρ) c).arrAt 5 cfg1.N
    = Fused.G (msg (Project.G (m ((c : Thread nD τ).loc main_arg0)) (m ((c : Thread nD τ).loc main_arg1)) (norm (m ((c : Thread nD τ).loc main_arg9))))
          (m ((c : Thread nD τ).loc main_arg9)) (m ((c : Thread nD τ).loc main_arg10)))
        (norm (m ((c : Thread nD τ).loc main_arg10))) (m ((c : Thread nD τ).loc main_arg2)) (m ((c : Thread nD τ).loc main_arg3))
        (norm (m ((c : Thread nD τ).loc main_arg9))) := by
  have e : W2 m ρ c (Proc.devRef .tc main_v17) = (dat0 (V1 m ρ) c).arrAt 3 cfg0.N := W2_arr m ρ c 3
  rw [Fused.final]
  show Fused.G (W3 m ρ c (Proc.devRef .tc main_v28)) (W3 m ρ c (Proc.devRef .tc main_v16)) (W3 m ρ c (Proc.devRef .tc main_arg2))
    (W3 m ρ c (Proc.devRef .tc main_arg3)) (W3 m ρ c (Proc.devRef .tc main_v11)) = _
  rw [W3_agg, e, out0, W2_src, W2_dst, W3_d_back, W1_d, W3_b0, W3_w1, W3_s_back, W1_s]

/-- The third region's output: the node output h. -/
theorem out2 (c : Dev nD) : (dat2 (V5 m ρ) c).arrAt 3 cfg2.N
    = nodesOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg9))
        (m ((c : Thread nD τ).loc main_arg10)) := by
  have e : W4 m ρ c (Proc.devRef .tc main_v29) = (dat1 (V3 m ρ) c).arrAt 5 cfg1.N := W4_arr m ρ c 5
  rw [Activate.final]
  show Activate.G (W5 m ρ c (Proc.devRef .tc main_v40)) (W5 m ρ c (Proc.devRef .tc main_v16)) (W5 m ρ c (Proc.devRef .tc main_arg4)) = _
  rw [W5_agg, e, out1, W4_src, W4_dst, W5_d_back, W1_d, W5_b1]
  rfl

/-- The fourth region's output: the head's output R. -/
theorem out3 (c : Dev nD) : (dat3 (V7 m ρ) c).arrAt 5 cfg3.N
    = headOf (nodesOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg9))
          (m ((c : Thread nD τ).loc main_arg10)))
        (m ((c : Thread nD τ).loc main_arg11)) (m ((c : Thread nD τ).loc main_arg5)) (m ((c : Thread nD τ).loc main_arg6))
        (m ((c : Thread nD τ).loc main_arg7)) (m ((c : Thread nD τ).loc main_arg8)) := by
  have e : W6 m ρ c (Proc.devRef .tc main_v41) = (dat2 (V5 m ρ) c).arrAt 3 cfg2.N := W6_arr m ρ c 3
  rw [Head.final]
  show Head.G (W7 m ρ c (Proc.devRef .tc main_v48)) (W7 m ρ c (Proc.devRef .tc main_arg5)) (W7 m ρ c (Proc.devRef .tc main_arg6))
    (W7 m ρ c (Proc.devRef .tc main_arg7)) (W7 m ρ c (Proc.devRef .tc main_arg8)) = _
  rw [W7_pick, e, out2, W6_users, W7_ws1, W7_bs1, W7_ws2, W7_bs2]
  rfl

/-- The run, read: every weakly fair execution terminates with the head's output at R, the node output at h, and the
    arguments as launched. -/
theorem run : θ_run defs (onTc (τ := τ) (main (F := Ideal))) ⟨m, fun _ => 0, ρ⟩ (fun r => ∀ c : Dev nD,
      r.2.mem ((c.tc : Thread nD τ).loc main_v49)
        = headOf (nodesOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg9))
            (m ((c : Thread nD τ).loc main_arg10)))
          (m ((c : Thread nD τ).loc main_arg11)) (m ((c : Thread nD τ).loc main_arg5)) (m ((c : Thread nD τ).loc main_arg6))
          (m ((c : Thread nD τ).loc main_arg7)) (m ((c : Thread nD τ).loc main_arg8))
      ∧ r.2.mem ((c.tc : Thread nD τ).loc main_v41)
        = nodesOf (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg9))
            (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c).1.trans ((Whole.W8_head m ρ c).trans (out3 m ρ c)),
      (h c).2.1.trans ((Whole.W8_nodes m ρ c).trans (out2 m ρ c)),
      (h c).2.2⟩)
    (Whole.run_bufs m ρ)

end Cert.KernelIdeal.Value

end
-- ==== Proof.ReferenceValue.lean ====
/-
  THE REFERENCE'S TWO RESULTS ARE THE KERNEL'S FUNCTIONS of the argument arrays.

  The reference is one stretch of host operations. Its run ends with each result at the operations' composed term of the
  arguments; in that term a `dot_general` of a plain product is the product, a column broadcast along the rows and
  multiplied is the row scaling, a bias broadcast down the rows, added and met with a broadcast zero is the
  bias-then-maximum, a bias broadcast and added is the bias add, and the hyperbolic tangent acts entry by entry — the
  stages the kernel's regions compute block by block. What is left on both sides is the same host computation (the degree
  factors, the gather along the edges' sources and the sum at their targets, the users' rows), spelt with dimension-number
  records of the same contents; the kernel's extra change of format after its gathers is the identity on extended reals.
-/
import proofs.«128032_j73830487818453_2_alg».proof.Proof.Gen.ReferenceIdeal.Run
import proofs.«128032_j73830487818453_2_alg».proof.Proof.KernelValue

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem
open Cert.Layer Cert.RowLocal

variable (m : (ℓ : Loc nD τ sig) → Buf (Elt Ideal) ℓ)

/-! ## The host's stages, in the reference's own spelling -/

/-- The zero the reference's maxima are taken with: its splat constant read at its one index. -/
abbrev zR : EReal := constant (F := Ideal) S_ .f32 0x00000000#32 ValueIdx.ix0

/-- A product [50000, 128] · [128, 128]. -/
theorem prodR (X : FVec Ideal S50000x128 .f32) (W : FVec Ideal S128x128 .f32) :
    Host.dotGeneral (F := Ideal) dot_S50000x128_S128x128_S50000x128_1_0_0_1_n_n none X W = prod X W :=
  dotGeneral_eq_prod _ rfl rfl rfl rfl rfl rfl X W

/-- Every node's row scaled by that node's factor. -/
theorem scaleR (Y : FVec Ideal S50000x128 .f32) (s : FVec Ideal S50000x1 .f32) :
    mulf (F := Ideal) Y (broadcastInDim S50000x128 ![0, 1] bcast_S50000x1_S50000x128_0_1 s) = scaleRows Y s :=
  hostScale_eq Y s _

/-- A bias added to every row, then the maximum with zero (the reference's relu, inlined). -/
theorem actR (Z : FVec Ideal S50000x128 .f32) (b : FVec Ideal S128 .f32) :
    maximumf (addf Z (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))
      = act Z b zR :=
  hostAct_eq Z b _ _ _ _

/-- A product [10000, 128] · [128, 64]. -/
theorem prodU1 (X : FVec Ideal S10000x128 .f32) (W : FVec Ideal S128x64 .f32) :
    Host.dotGeneral (F := Ideal) dot_S10000x128_S128x64_S10000x64_1_0_0_1_n_n none X W = prod X W :=
  dotGeneral_eq_prod _ rfl rfl rfl rfl rfl rfl X W

/-- A product [10000, 64] · [64, 64]. -/
theorem prodU2 (X : FVec Ideal S10000x64 .f32) (W : FVec Ideal S64x64 .f32) :
    Host.dotGeneral (F := Ideal) dot_S10000x64_S64x64_S10000x64_1_0_0_1_n_n none X W = prod X W :=
  dotGeneral_eq_prod _ rfl rfl rfl rfl rfl rfl X W

/-- A bias added to every user's row. -/
theorem addRowR (Y : FVec Ideal S10000x64 .f32) (o : FVec Ideal S64 .f32) :
    addf (F := Ideal) Y (broadcastInDim S10000x64 ![0, 1] bcast_S1x64_S10000x64_0_1 (broadcastInDim S1x64 ![1] bcast_S64_S1x64_1 o))
      = addRow Y o :=
  hostAddRow_eq Y o _ _

/-- The hyperbolic tangent, entry by entry. -/
theorem tanhR (Y : FVec Ideal S10000x64 .f32) : Host.tanh (F := Ideal) Y = mapEntries Ideal.tanh Y := rfl

/-! ## The two results -/

/-- The reference's node output is the kernel's function of the arguments: the stages rewritten, what is left is the
    same host computation on both sides. -/
theorem nodes_eq (c : Dev nD) : res_main_v54 (F := Ideal) m c
    = Cert.KernelIdeal.Value.nodesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)) := by
  unfold res_main_v54
  rw [prodR, prodR, scaleR, scaleR, scaleR, scaleR, actR, actR]
  rfl

/-- The reference's head output is the kernel's function of the arguments. -/
theorem head_eq (c : Dev nD) : res_main_v70 (F := Ideal) m c
    = Cert.KernelIdeal.Value.headOf (Cert.KernelIdeal.Value.nodesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10)))
        (m ((c.tc : Thread nD τ).loc main_arg11)) (m ((c.tc : Thread nD τ).loc main_arg5)) (m ((c.tc : Thread nD τ).loc main_arg6)) (m ((c.tc : Thread nD τ).loc main_arg7)) (m ((c.tc : Thread nD τ).loc main_arg8)) := by
  unfold res_main_v70
  rw [prodR, prodR, scaleR, scaleR, scaleR, scaleR, actR, actR, prodU1, prodU2, addRowR, addRowR, tanhR]
  rfl

end Cert.ReferenceIdeal.RefValue

end
-- ==== Proof.lean ====
/-
  A two-layer graph convolution with a dense head: the kernel against its jnp reference, on the extended reals.

  With s, d : [50000, 1] the source- and target-side degree factors (degree, at least one, to the power −1/2) and M one
  round of message passing over the 1,600,000 edges (every edge takes its source node's row; the rows are added at the
  edges' targets), both programs compute

      h = max(M(max(M((X · W₀) s) d + b₀, 0) · W₁ s) d + b₁, 0),      R = tanh(h[users] · Ws₁ + bs₁) · Ws₂ + bs₂,

  where juxtaposition with s or d scales every node's row by that node's factor. The reference does it in one stretch of
  host operations; the kernel does the degree factors, M and the users' gather on the host and the four dense stages in
  four pallas_calls, each over row blocks of 5000. The operations come in the same order on both sides, so no law of the
  extended reals beyond the meaning of the operations is used, and the precondition (finite inputs) is never opened:

  * each pallas_call's output array is one whole-array function of the arrays it finds, because each dense stage acts row
    by row and the row blocks tile the output (the four region files, over the row-local stage lemmas);
  * the arrays a region finds are arguments, degree factors, or a host stretch's function of an earlier region's output
    (the fold file), so the kernel's run ends at the composed functions `headOf`, `nodesOf` of the arguments;
  * the reference's composed term is the same two functions: a dot_general is the product, the broadcasts and elementwise
    operations are the row scalings, bias adds and maxima, and a change of float format is the identity.

  The three frames: the kernels' by the frame certificates, the reference's by its run. Nothing was rewritten by the ideal
  pass, so the idealization claim has no conjunct.
-/
import proofs.«128032_j73830487818453_2_alg».proof.Defs
import proofs.«128032_j73830487818453_2_alg».proof.Proof.Gen.Kernel
import proofs.«128032_j73830487818453_2_alg».proof.Proof.Gen.KernelIdeal
import proofs.«128032_j73830487818453_2_alg».proof.Proof.Gen.ReferenceIdeal
import proofs.«128032_j73830487818453_2_alg».proof.Proof.Gen.Pre_finite_inputs
import proofs.«128032_j73830487818453_2_alg».proof.Proof.Gen.ReferenceIdeal.Run
import proofs.«128032_j73830487818453_2_alg».proof.Proof.KernelFrameP
import proofs.«128032_j73830487818453_2_alg».proof.Proof.KernelIdealFrameP
import proofs.«128032_j73830487818453_2_alg».proof.Proof.KernelValue
import proofs.«128032_j73830487818453_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments. -/
theorem frame_kernel : Cert.frame_Kernel := fun m ρ _ => Cert.Kernel.GenP.frame m ρ

/-- The idealized kernel runs and leaves its arguments. -/
theorem frame_kernelIdeal : Cert.frame_KernelIdeal := fun m ρ _ => Cert.KernelIdeal.GenP.frame m ρ

/-- The idealized reference runs and leaves its arguments: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the arguments the two idealized programs end with the same two results: the kernel's run
    ends at `headOf` and `nodesOf` of its arguments, the reference's at its composed term, which is those functions of
    its own arguments, and the arguments agree. -/
theorem algebraic : Cert.algebraic_KernelIdeal_ReferenceIdeal := by
  intro m ρ m' ρ' _ hagree
  refine ⟨_, _, Cert.KernelIdeal.Value.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  refine ⟨(h c).1.trans ?_, (h c).2.1.trans ?_, (h c).2.2⟩
  · rw [Cert.ReferenceIdeal.RefValue.head_eq, a0, a1, a2, a3, a4, a5, a6, a7, a8, a9, a10, a11]
  · rw [Cert.ReferenceIdeal.RefValue.nodes_eq, a0, a1, a2, a3, a4, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
